-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x4096 : Shape := ⟨3, ![8, 1, 4096]⟩
abbrev S1x3x512 : Shape := ⟨3, ![1, 3, 512]⟩
abbrev S1x3x4096 : Shape := ⟨3, ![1, 3, 4096]⟩
abbrev S1x1x512 : Shape := ⟨3, ![1, 1, 512]⟩
abbrev S1x1x4096 : Shape := ⟨3, ![1, 1, 4096]⟩
abbrev S1x4096 : Shape := ⟨2, ![1, 4096]⟩
abbrev S3x512 : Shape := ⟨2, ![3, 512]⟩
abbrev S3x4096 : Shape := ⟨2, ![3, 4096]⟩
abbrev S512 : Shape := ⟨1, ![512]⟩
abbrev S1x512 : Shape := ⟨2, ![1, 512]⟩
abbrev S4096 : Shape := ⟨1, ![4096]⟩
abbrev S5x512 : Shape := ⟨2, ![5, 512]⟩
abbrev S5x4096 : Shape := ⟨2, ![5, 4096]⟩
abbrev S512x4096 : Shape := ⟨2, ![512, 4096]⟩
abbrev S8x4096 : Shape := ⟨2, ![8, 4096]⟩
abbrev S_ : Shape := ⟨0, ![]⟩
abbrev S8 : Shape := ⟨1, ![8]⟩

abbrev nBuf : Space → Nat
  | .hbm => 23
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x1x4096, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x3x512, .f32⟩
  | .local _ .vmem, ⟨1, _⟩ => ⟨S1x3x512, .f32⟩
  | .local _ .vmem, ⟨2, _⟩ => ⟨S1x3x4096, .f32⟩
  | .local _ .vmem, ⟨3, _⟩ => ⟨S1x3x4096, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_19 : BitVec 32 := 0#32
  let v33 : BitVec 1 := Scalar.cmpi .ne v32 c0_i32_19
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x512_S512 : S3x512.Reduces [0] S512
  shapeCasts_S512_S1x512 : S512.ShapeCasts S1x512
  reduces_S3x4096_S4096 : S3x4096.Reduces [0] S4096
  shapeCasts_S4096_S1x4096 : S4096.ShapeCasts S1x4096
  concatenates_S3x512_S1x512_S1x512_S5x512_d0 : Shape.Concatenates [S3x512, S1x512, S1x512] S5x512 0
  concatenates_S3x4096_S1x4096_S1x4096_S5x4096_d0 : Shape.Concatenates [S3x4096, S1x4096, S1x4096] S5x4096 0
  reduces_S512x4096_S512 : S512x4096.Reduces [1] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  reduces_S512x4096_S4096 : S512x4096.Reduces [0] S4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x4096_S4096 : S1x4096.ShapeCasts S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S5x512_S5x4096_S512x4096_0_0_1_1_n_n_wf : DotDims.WF S5x512 S5x4096 S512x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S8x3x4096.size a
  hwx0_0 : ∀ i : grid0.Coords, EltTy.bits .f32 = 32 ∨ (Rect.block (s := S8x3x4096) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S5x512_S5x4096_S512x4096_0_0_1_1_n_n : DotDims S5x512 S5x4096 S512x4096 where
  lhsContracting := [0]
  rhsContracting := [0]
  lhsNonContracting := [1]
  rhsNonContracting := [1]
  lhsBatch := []
  rhsBatch := []
  wf := dot_S5x512_S5x4096_S512x4096_0_0_1_1_n_n_wf

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.BitsConds.lean ====
/-
  The grid of the kernel is 8 batches by 8 row blocks of 512 points. Along a batch the body does three things under
  conditions on the row block's number: at block 0 it stores the block's column minima into the scratch row, at every
  later block it folds them into the scratch row by a minimum, and at block 7 it copies the scratch row into the second
  output's buffer. This module decides those conditions over the 64 points, says at which points the second output's
  buffer is left untouched and not written back, and names the buffers the body is called with.
-/
import proofs.«130840_j14293651161196_2_alg».proof.Proof.Gen.Kernel.Frame
import proofs.«130840_j14293651161196_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions, from the row block's number -/

/-- The row block is the first of its batch. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- The row block is not the first of its batch. -/
abbrev pastFirst (i : grid0.Coords) : Prop := (Scalar.cmpi .ne (Scalar.extui (Scalar.cmpi .ne (BitVec.ofNat 32 (i 1).val) 0#32)) 0#32) = 1#1
theorem pastFirst_iff : ∀ t : Fin cfg0.N, pastFirst (grid0.coords t) ↔ t.val % 8 ≠ 0 :=
  (by decide +kernel : ∀ t : Fin grid0.N, pastFirst (grid0.coords t) ↔ t.val % 8 ≠ 0)

/-- The row block is the last of its batch. -/
abbrev atLast (i : grid0.Coords) : Prop := k0_cond3 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Before the last row block of a batch nothing is stored into the second output's buffer, -/
theorem idle_3 : ∀ t : Fin cfg0.N, ¬atLast (grid0.coords t) → cfg0.idle 3 (grid0.coords t) = true := by decide +kernel
/-- and its block is not written back there. -/
theorem noFlush_3 : ∀ t : Fin cfg0.N, ¬atLast (grid0.coords t) → (cfg0.win 3).flush t = false := by decide +kernel
/-- At the last row block it is stored into. -/
theorem live_3 : ∀ t : Fin cfg0.N, atLast (grid0.coords t) → cfg0.idle 3 (grid0.coords t) = false := by decide +kernel

/-! ## The buffers the body is called with -/

abbrev ms0 (t : Fin cfg0.N) : Memref sig .tc .vmem S1x3x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
/-- The scratch row of 4096 running column minima. -/
abbrev scM : Memref sig .tc .vmem S1x4096 .f32 := Memref.whole cc0_scratch0
abbrev VS : View sig .tc .vmem S1x4096 .f32 := scM.view
/-- One buffer of each output, through which its contents are stated. -/
abbrev VO2 : View sig .tc .vmem S1x1x512 .f32 := (Memref.whole cc0_stg2_0 : Memref sig .tc .vmem S1x1x512 .f32).view
abbrev VO3 : View sig .tc .vmem S1x1x4096 .f32 := (Memref.whole cc0_stg3_0 : Memref sig .tc .vmem S1x1x4096 .f32).view

/-- What the region's invariant holds besides the windows: the scratch row at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.BitsRunA.lean ====
/-
  The kernel body run at the first row block of a batch: the block's column minima are stored into the scratch row, whatever it held.
  On whole buffers — the two clouds' blocks at their contents, the first output's buffer at anything (it is stored whole), the second output's handed back untouched,
  the scratch row at anything — the body runs to the end and leaves each buffer it stored into with its stores written, as a list of
  pieces (last store first) that the run itself determines.
-/
import proofs.«130840_j14293651161196_2_alg».proof.Proof.BitsConds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runA (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i)
    (x0 : Vec F S1x3x512 .f32) (x1 : Vec F S1x3x4096 .f32) :
    Σ' (L2 : List (View.Piece (Elt F) S1x1x512 .f32)), { LS : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Hand

end
-- ==== Proof.BitsRunB.lean ====
/-
  The kernel body run at a row block that is neither first nor last: the block's column minima are folded into the scratch row by a minimum.
  On whole buffers — the two clouds' blocks at their contents, the first output's buffer at anything (it is stored whole), the second output's handed back untouched,
  the scratch row at what the row block before left — the body runs to the end and leaves each buffer it stored into with its stores written, as a list of
  pieces (last store first) that the run itself determines.
-/
import proofs.«130840_j14293651161196_2_alg».proof.Proof.BitsRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runB (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i)
    (x0 : Vec F S1x3x512 .f32) (x1 : Vec F S1x3x4096 .f32) (xs : Vec F S1x4096 .f32) :
    Σ' (L2 : List (View.Piece (Elt F) S1x1x512 .f32)), { LS : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Hand

end
-- ==== Proof.BitsRunC.lean ====
/-
  The kernel body run at the last row block of a batch: the column minima are folded into the scratch row, and the scratch row is then copied into the second output's buffer.
  On whole buffers — the two clouds' blocks at their contents, the first output's buffer at anything (it is stored whole), the second output's at anything,
  the scratch row at what the row block before left — the body runs to the end and leaves each buffer it stored into with its stores written, as a list of
  pieces (last store first) that the run itself determines.
-/
import proofs.«130840_j14293651161196_2_alg».proof.Proof.BitsRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runC (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i)
    (x0 : Vec F S1x3x512 .f32) (x1 : Vec F S1x3x4096 .f32) (xs : Vec F S1x4096 .f32) :
    Σ' (L2 : List (View.Piece (Elt F) S1x1x512 .f32)) (L3 : List (View.Piece (Elt F) S1x1x4096 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Hand

end
-- ==== Proof.BitsFrame.lean ====
/-
  The frame of the kernel program, and what its two outputs hold after every point of the grid.
  Along a batch the scratch row carries the running column minima: the first row block stores its column minima, each
  later one folds its own in by a minimum, and the last one also copies the row into the second output's buffer; the
  first output's buffer is stored whole at every point. `outsAt` states, by recursion on the point, what the two output
  buffers and the scratch row hold after the body there; the region's invariant keeps the scratch row at that value
  between points. With these as proof data every point's body obligation is one of the three runs, and the launch
  theorem gives the run of the whole program: it terminates, nothing faults, each output array ends at what the
  write-backs left and the argument arrays as they were.
-/
import proofs.«130840_j14293651161196_2_alg».proof.Proof.BitsRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What this case leaves in the first output's buffer: its stores read back. -/
def out2_A (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) : Vec F S1x1x512 .f32 :=
  VO2.read (Elt F) (VO2.writes (Elt F) VO2.junk (runA c i arg2 harg2 arg3 harg3 arg4 harg4 arg5 harg5 arg6 harg6 hA hB hC x0 x1).1)
/-- Its stores tile that buffer. -/
theorem cover2_A (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) (y : S1x1x512.Idx) :
    ∃ pc ∈ (runA c i arg2 harg2 arg3 harg3 arg4 harg4 arg5 harg5 arg6 harg6 hA hB hC x0 x1).1, y ∈ pc.1.set :=
  View.cover_of_tiledL (runA c i arg2 harg2 arg3 harg3 arg4 harg4 arg5 harg5 arg6 harg6 hA hB hC x0 x1).1 S1x1x512.size (by sl_kernel_rfl) y
/-- What this case leaves in the scratch row. -/
def scr_A (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) : Vec F S1x4096 .f32 :=
  VS.read (Elt F) (VS.writes (Elt F) VS.junk (runA c i arg2 harg2 arg3 harg3 arg4 harg4 arg5 harg5 arg6 harg6 hA hB hC x0 x1).2.1)
/-- Its stores tile the scratch row. -/
theorem scover_A (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) (y : S1x4096.Idx) :
    ∃ pc ∈ (runA c i arg2 harg2 arg3 harg3 arg4 harg4 arg5 harg5 arg6 harg6 hA hB hC x0 x1).2.1, y ∈ pc.1.set :=
  View.cover_of_tiledL (runA c i arg2 harg2 arg3 harg3 arg4 harg4 arg5 harg5 arg6 harg6 hA hB hC x0 x1).2.1 S1x4096.size (by sl_kernel_rfl) y

/-- What this case leaves in the first output's buffer: its stores read back. -/
def out2_B (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) : Vec F S1x1x512 .f32 :=
  VO2.read (Elt F) (VO2.writes (Elt F) VO2.junk (runB c i arg2 harg2 arg3 harg3 arg4 harg4 arg5 harg5 arg6 harg6 hA hB hC x0 x1 xs).1)
/-- Its stores tile that buffer. -/
theorem cover2_B (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) (y : S1x1x512.Idx) :
    ∃ pc ∈ (runB c i arg2 harg2 arg3 harg3 arg4 harg4 arg5 harg5 arg6 harg6 hA hB hC x0 x1 xs).1, y ∈ pc.1.set :=
  View.cover_of_tiledL (runB c i arg2 harg2 arg3 harg3 arg4 harg4 arg5 harg5 arg6 harg6 hA hB hC x0 x1 xs).1 S1x1x512.size (by sl_kernel_rfl) y
/-- What this case leaves in the scratch row. -/
def scr_B (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) : Vec F S1x4096 .f32 :=
  VS.read (Elt F) (VS.writes (Elt F) VS.junk (runB c i arg2 harg2 arg3 harg3 arg4 harg4 arg5 harg5 arg6 harg6 hA hB hC x0 x1 xs).2.1)
/-- Its stores tile the scratch row. -/
theorem scover_B (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) (y : S1x4096.Idx) :
    ∃ pc ∈ (runB c i arg2 harg2 arg3 harg3 arg4 harg4 arg5 harg5 arg6 harg6 hA hB hC x0 x1 xs).2.1, y ∈ pc.1.set :=
  View.cover_of_tiledL (runB c i arg2 harg2 arg3 harg3 arg4 harg4 arg5 harg5 arg6 harg6 hA hB hC x0 x1 xs).2.1 S1x4096.size (by sl_kernel_rfl) y

/-- What this case leaves in the first output's buffer: its stores read back. -/
def out2_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) : Vec F S1x1x512 .f32 :=
  VO2.read (Elt F) (VO2.writes (Elt F) VO2.junk (runC c i arg2 harg2 arg3 harg3 arg4 harg4 arg5 harg5 arg6 harg6 hA hB hC x0 x1 xs).1)
/-- Its stores tile that buffer. -/
theorem cover2_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) (y : S1x1x512.Idx) :
    ∃ pc ∈ (runC c i arg2 harg2 arg3 harg3 arg4 harg4 arg5 harg5 arg6 harg6 hA hB hC x0 x1 xs).1, y ∈ pc.1.set :=
  View.cover_of_tiledL (runC c i arg2 harg2 arg3 harg3 arg4 harg4 arg5 harg5 arg6 harg6 hA hB hC x0 x1 xs).1 S1x1x512.size (by sl_kernel_rfl) y
/-- What this case leaves in the scratch row. -/
def scr_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) : Vec F S1x4096 .f32 :=
  VS.read (Elt F) (VS.writes (Elt F) VS.junk (runC c i arg2 harg2 arg3 harg3 arg4 harg4 arg5 harg5 arg6 harg6 hA hB hC x0 x1 xs).2.2.1)
/-- Its stores tile the scratch row. -/
theorem scover_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) (y : S1x4096.Idx) :
    ∃ pc ∈ (runC c i arg2 harg2 arg3 harg3 arg4 harg4 arg5 harg5 arg6 harg6 hA hB hC x0 x1 xs).2.2.1, y ∈ pc.1.set :=
  View.cover_of_tiledL (runC c i arg2 harg2 arg3 harg3 arg4 harg4 arg5 harg5 arg6 harg6 hA hB hC x0 x1 xs).2.2.1 S1x4096.size (by sl_kernel_rfl) y

/-- What the last case leaves in the second output's buffer. -/
def out3_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) : Vec F S1x1x4096 .f32 :=
  VO3.read (Elt F) (VO3.writes (Elt F) VO3.junk (runC c i arg2 harg2 arg3 harg3 arg4 harg4 arg5 harg5 arg6 harg6 hA hB hC x0 x1 xs).2.1)
/-- Its store tiles that buffer. -/
theorem cover3_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) (y : S1x1x4096.Idx) :
    ∃ pc ∈ (runC c i arg2 harg2 arg3 harg3 arg4 harg4 arg5 harg5 arg6 harg6 hA hB hC x0 x1 xs).2.1, y ∈ pc.1.set :=
  View.cover_of_tiledL (runC c i arg2 harg2 arg3 harg3 arg4 harg4 arg5 harg5 arg6 harg6 hA hB hC x0 x1 xs).2.1 S1x1x4096.size (by sl_kernel_rfl) y

/-- A placeholder for the second output's buffer at the points that leave it untouched and do not write it back. -/
def idle3 : Vec F S1x1x4096 .f32 := VO3.read (Elt F) (VO3.writes (Elt F) VO3.junk [])

/-! ## Which case a point is in, from its number -/

theorem isA (t : Fin cfg0.N) (h0 : t.val % 8 = 0) :
    atFirst (grid0.coords t) ∧ ¬pastFirst (grid0.coords t) ∧ ¬atLast (grid0.coords t) :=
  ⟨(atFirst_iff t).mpr h0, fun h => (pastFirst_iff t).mp h h0, fun h => by have := (atLast_iff t).mp h; omega⟩
theorem isB (t : Fin cfg0.N) (h0 : ¬t.val % 8 = 0) (h7 : ¬t.val % 8 = 7) :
    ¬atFirst (grid0.coords t) ∧ pastFirst (grid0.coords t) ∧ ¬atLast (grid0.coords t) :=
  ⟨fun h => h0 ((atFirst_iff t).mp h), (pastFirst_iff t).mpr h0, fun h => h7 ((atLast_iff t).mp h)⟩
theorem isC (t : Fin cfg0.N) (h7 : t.val % 8 = 7) :
    ¬atFirst (grid0.coords t) ∧ pastFirst (grid0.coords t) ∧ atLast (grid0.coords t) :=
  ⟨fun h => by have := (atFirst_iff t).mp h; omega, (pastFirst_iff t).mpr (by omega), (atLast_iff t).mpr h7⟩

/-! ## What the buffers hold after each point -/

/-- After the body at point `n`: the first output's buffer, the second output's buffer, the scratch row. -/
def outsAt (c : Dev nD) : (n : ℕ) → n < cfg0.N → Vec F S1x1x512 .f32 × Vec F S1x1x4096 .f32 × Vec F S1x4096 .f32
  | 0, hn => (out2_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (isA ⟨0, hn⟩ (Nat.zero_mod 8)).1 (isA ⟨0, hn⟩ (Nat.zero_mod 8)).2.1 (isA ⟨0, hn⟩ (Nat.zero_mod 8)).2.2 (iblk m c 0 ⟨0, hn⟩) (iblk m c 1 ⟨0, hn⟩), idle3, scr_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (isA ⟨0, hn⟩ (Nat.zero_mod 8)).1 (isA ⟨0, hn⟩ (Nat.zero_mod 8)).2.1 (isA ⟨0, hn⟩ (Nat.zero_mod 8)).2.2 (iblk m c 0 ⟨0, hn⟩) (iblk m c 1 ⟨0, hn⟩))
  | n + 1, hn =>
    if h0 : (n + 1) % 8 = 0 then
      (out2_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isA ⟨n + 1, hn⟩ h0).1 (isA ⟨n + 1, hn⟩ h0).2.1 (isA ⟨n + 1, hn⟩ h0).2.2 (iblk m c 0 ⟨n + 1, hn⟩) (iblk m c 1 ⟨n + 1, hn⟩), idle3, scr_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isA ⟨n + 1, hn⟩ h0).1 (isA ⟨n + 1, hn⟩ h0).2.1 (isA ⟨n + 1, hn⟩ h0).2.2 (iblk m c 0 ⟨n + 1, hn⟩) (iblk m c 1 ⟨n + 1, hn⟩))
    else if h7 : (n + 1) % 8 = 7 then
      (out2_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isC ⟨n + 1, hn⟩ h7).1 (isC ⟨n + 1, hn⟩ h7).2.1 (isC ⟨n + 1, hn⟩ h7).2.2 (iblk m c 0 ⟨n + 1, hn⟩) (iblk m c 1 ⟨n + 1, hn⟩) (outsAt c n (Nat.lt_of_succ_lt hn)).2.2, out3_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isC ⟨n + 1, hn⟩ h7).1 (isC ⟨n + 1, hn⟩ h7).2.1 (isC ⟨n + 1, hn⟩ h7).2.2 (iblk m c 0 ⟨n + 1, hn⟩) (iblk m c 1 ⟨n + 1, hn⟩) (outsAt c n (Nat.lt_of_succ_lt hn)).2.2, scr_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isC ⟨n + 1, hn⟩ h7).1 (isC ⟨n + 1, hn⟩ h7).2.1 (isC ⟨n + 1, hn⟩ h7).2.2 (iblk m c 0 ⟨n + 1, hn⟩) (iblk m c 1 ⟨n + 1, hn⟩) (outsAt c n (Nat.lt_of_succ_lt hn)).2.2)
    else
      (out2_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isB ⟨n + 1, hn⟩ h0 h7).1 (isB ⟨n + 1, hn⟩ h0 h7).2.1 (isB ⟨n + 1, hn⟩ h0 h7).2.2 (iblk m c 0 ⟨n + 1, hn⟩) (iblk m c 1 ⟨n + 1, hn⟩) (outsAt c n (Nat.lt_of_succ_lt hn)).2.2, idle3, scr_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isB ⟨n + 1, hn⟩ h0 h7).1 (isB ⟨n + 1, hn⟩ h0 h7).2.1 (isB ⟨n + 1, hn⟩ h0 h7).2.2 (iblk m c 0 ⟨n + 1, hn⟩) (iblk m c 1 ⟨n + 1, hn⟩) (outsAt c n (Nat.lt_of_succ_lt hn)).2.2)

theorem outsAt_A (c : Dev nD) (t : Fin cfg0.N) (h0 : t.val % 8 = 0) :
    outsAt m c t.val t.isLt = (out2_A c (grid0.coords t) (ms0 t) (hs0 t) (ms1 t) (hs1 t) (ms2 t) (hs2 t) (ms3 t) (hs3 t) scM (Memref.isWhole_whole _) (isA t h0).1 (isA t h0).2.1 (isA t h0).2.2 (iblk m c 0 t) (iblk m c 1 t), idle3, scr_A c (grid0.coords t) (ms0 t) (hs0 t) (ms1 t) (hs1 t) (ms2 t) (hs2 t) (ms3 t) (hs3 t) scM (Memref.isWhole_whole _) (isA t h0).1 (isA t h0).2.1 (isA t h0).2.2 (iblk m c 0 t) (iblk m c 1 t)) := by
  obtain ⟨n, hn⟩ := t
  cases n with
  | zero => exact rfl
  | succ n => exact dif_pos h0

theorem outsAt_B (c : Dev nD) (t : Fin cfg0.N) (h0 : ¬t.val % 8 = 0) (h7 : ¬t.val % 8 = 7) :
    outsAt m c t.val t.isLt = (out2_B c (grid0.coords t) (ms0 t) (hs0 t) (ms1 t) (hs1 t) (ms2 t) (hs2 t) (ms3 t) (hs3 t) scM (Memref.isWhole_whole _) (isB t h0 h7).1 (isB t h0 h7).2.1 (isB t h0 h7).2.2 (iblk m c 0 t) (iblk m c 1 t) (outsAt m c (t.val - 1) (Nat.lt_of_le_of_lt (Nat.sub_le _ _) t.isLt)).2.2, idle3, scr_B c (grid0.coords t) (ms0 t) (hs0 t) (ms1 t) (hs1 t) (ms2 t) (hs2 t) (ms3 t) (hs3 t) scM (Memref.isWhole_whole _) (isB t h0 h7).1 (isB t h0 h7).2.1 (isB t h0 h7).2.2 (iblk m c 0 t) (iblk m c 1 t) (outsAt m c (t.val - 1) (Nat.lt_of_le_of_lt (Nat.sub_le _ _) t.isLt)).2.2) := by
  obtain ⟨n, hn⟩ := t
  cases n with
  | zero => exact absurd (Nat.zero_mod 8) h0
  | succ n => exact (dif_neg h0).trans ((dif_neg h7).trans rfl)

theorem outsAt_C (c : Dev nD) (t : Fin cfg0.N) (h0 : ¬t.val % 8 = 0) (h7 : t.val % 8 = 7) :
    outsAt m c t.val t.isLt = (out2_C c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2, out3_C c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2, scr_C c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2) := by
  obtain ⟨n, hn⟩ := t
  cases n with
  | zero => exact absurd (Nat.zero_mod 8) h0
  | succ n => exact (dif_neg h0).trans ((dif_pos h7).trans rfl)

/-- The region's invariant before point `n`: before the first point the scratch row holds anything; afterwards what the
    point before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
      unfold Dat.leavesExact; rw [live_0 t], after_0]
  rw [show (dats m 0 c).leavesExact 1 t = owns (c : Thread nD τ) (ms1 t) fullShare ((dats m 0 c).after 1 t) from by
      unfold Dat.leavesExact; rw [live_1 t], after_1]
  rw [show (dats m 0 c).leavesExact 2 t = owns (c : Thread nD τ) (ms2 t) fullShare ((dats m 0 c).after 2 t) from by
      unfold Dat.leavesExact; rw [live_2 t], after_2]
  by_cases h0 : t.val % 8 = 0
  · rw [Dat.leavesExact_idle (dats m 0 c) 3 t (idle_3 t (isA t h0).2.2) (noFlush_3 t (isA t h0).2.2)]
    rw [outsAt_A m c t h0]
    unfold out2_A scr_A; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ (isA t h0).1 (isA t h0).2.1 (isA t h0).2.2 (iblk m c 0 t) (iblk m c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ (isA t h0).1 (isA t h0).2.1 (isA t h0).2.2 (iblk m c 0 t) (iblk m c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
  · have hz : t.val ≠ 0 := fun h => h0 (by rw [h])
    by_cases h7 : t.val % 8 = 7
    · rw [show (dats m 0 c).leavesExact 3 t = owns (c : Thread nD τ) (ms3 t) fullShare ((dats m 0 c).after 3 t) from by
          unfold Dat.leavesExact; rw [live_3 t (isC t h7).2.2], after_3]
      rw [outsAt_C m c t h0 h7]
      unfold out2_C out3_C scr_C; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runC c (grid0.coords t) _ _ _ _ _ _ _ _ _ _ (isC t h7).1 (isC t h7).2.1 (isC t h7).2.2 (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (scover_C c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C c _ _ _ _ _ _ _ _ _ _ _ _ _ _ _ _ _)
      unfold owns; iexists _; isplitr
      swap; · iexact H3
      ipureintro; exact View.read_writes_of_cover _ _ _ _ _ (cover3_C c _ _ _ _ _ _ _ _ _ _ _ _ _ _ _ _ _)
    · rw [Dat.leavesExact_idle (dats m 0 c) 3 t (idle_3 t (isB t h0 h7).2.2) (noFlush_3 t (isB t h0 h7).2.2)]
      rw [outsAt_B m c t h0 h7]
      unfold out2_B scr_B; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runB c (grid0.coords t) _ _ _ _ _ _ _ _ _ _ (isB t h0 h7).1 (isB t h0 h7).2.1 (isB t h0 h7).2.2 (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B c _ _ _ _ _ _ _ _ _ _ _ _ _ _ _ _ _)
      iexists _; iexact H3

/-- The body obligation at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run of the whole program -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program terminates, nothing faults, and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.IdealConds.lean ====
/-
  The grid of the kernel is 8 batches by 8 row blocks of 512 points. Along a batch the body does three things under
  conditions on the row block's number: at block 0 it stores the block's column minima into the scratch row, at every
  later block it folds them into the scratch row by a minimum, and at block 7 it copies the scratch row into the second
  output's buffer. This module decides those conditions over the 64 points, says at which points the second output's
  buffer is left untouched and not written back, and names the buffers the body is called with.
-/
import proofs.«130840_j14293651161196_2_alg».proof.Proof.Gen.KernelIdeal.Frame
import proofs.«130840_j14293651161196_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions, from the row block's number -/

/-- The row block is the first of its batch. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- The row block is not the first of its batch. -/
abbrev pastFirst (i : grid0.Coords) : Prop := (Scalar.cmpi .ne (Scalar.extui (Scalar.cmpi .ne (BitVec.ofNat 32 (i 1).val) 0#32)) 0#32) = 1#1
theorem pastFirst_iff : ∀ t : Fin cfg0.N, pastFirst (grid0.coords t) ↔ t.val % 8 ≠ 0 :=
  (by decide +kernel : ∀ t : Fin grid0.N, pastFirst (grid0.coords t) ↔ t.val % 8 ≠ 0)

/-- The row block is the last of its batch. -/
abbrev atLast (i : grid0.Coords) : Prop := k0_cond3 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Before the last row block of a batch nothing is stored into the second output's buffer, -/
theorem idle_3 : ∀ t : Fin cfg0.N, ¬atLast (grid0.coords t) → cfg0.idle 3 (grid0.coords t) = true := by decide +kernel
/-- and its block is not written back there. -/
theorem noFlush_3 : ∀ t : Fin cfg0.N, ¬atLast (grid0.coords t) → (cfg0.win 3).flush t = false := by decide +kernel
/-- At the last row block it is stored into. -/
theorem live_3 : ∀ t : Fin cfg0.N, atLast (grid0.coords t) → cfg0.idle 3 (grid0.coords t) = false := by decide +kernel

/-! ## The buffers the body is called with -/

abbrev ms0 (t : Fin cfg0.N) : Memref sig .tc .vmem S1x3x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
/-- The scratch row of 4096 running column minima. -/
abbrev scM : Memref sig .tc .vmem S1x4096 .f32 := Memref.whole cc0_scratch0
abbrev VS : View sig .tc .vmem S1x4096 .f32 := scM.view
/-- One buffer of each output, through which its contents are stated. -/
abbrev VO2 : View sig .tc .vmem S1x1x512 .f32 := (Memref.whole cc0_stg2_0 : Memref sig .tc .vmem S1x1x512 .f32).view
abbrev VO3 : View sig .tc .vmem S1x1x4096 .f32 := (Memref.whole cc0_stg3_0 : Memref sig .tc .vmem S1x1x4096 .f32).view

/-- What the region's invariant holds besides the windows: the scratch row at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.IdealRunA.lean ====
/-
  The kernel body run at the first row block of a batch: the block's column minima are stored into the scratch row, whatever it held.
  On whole buffers — the two clouds' blocks at their contents, the first output's buffer at anything (it is stored whole), the second output's handed back untouched,
  the scratch row at anything — the body runs to the end and leaves each buffer it stored into with its stores written, as a list of
  pieces (last store first) that the run itself determines.
-/
import proofs.«130840_j14293651161196_2_alg».proof.Proof.IdealConds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runA (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i)
    (x0 : Vec F S1x3x512 .f32) (x1 : Vec F S1x3x4096 .f32) :
    Σ' (L2 : List (View.Piece (Elt F) S1x1x512 .f32)), { LS : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Hand

end
-- ==== Proof.IdealRunB.lean ====
/-
  The kernel body run at a row block that is neither first nor last: the block's column minima are folded into the scratch row by a minimum.
  On whole buffers — the two clouds' blocks at their contents, the first output's buffer at anything (it is stored whole), the second output's handed back untouched,
  the scratch row at what the row block before left — the body runs to the end and leaves each buffer it stored into with its stores written, as a list of
  pieces (last store first) that the run itself determines.
-/
import proofs.«130840_j14293651161196_2_alg».proof.Proof.IdealRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runB (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i)
    (x0 : Vec F S1x3x512 .f32) (x1 : Vec F S1x3x4096 .f32) (xs : Vec F S1x4096 .f32) :
    Σ' (L2 : List (View.Piece (Elt F) S1x1x512 .f32)), { LS : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Hand

end
-- ==== Proof.IdealRunC.lean ====
/-
  The kernel body run at the last row block of a batch: the column minima are folded into the scratch row, and the scratch row is then copied into the second output's buffer.
  On whole buffers — the two clouds' blocks at their contents, the first output's buffer at anything (it is stored whole), the second output's at anything,
  the scratch row at what the row block before left — the body runs to the end and leaves each buffer it stored into with its stores written, as a list of
  pieces (last store first) that the run itself determines.
-/
import proofs.«130840_j14293651161196_2_alg».proof.Proof.IdealRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runC (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i)
    (x0 : Vec F S1x3x512 .f32) (x1 : Vec F S1x3x4096 .f32) (xs : Vec F S1x4096 .f32) :
    Σ' (L2 : List (View.Piece (Elt F) S1x1x512 .f32)) (L3 : List (View.Piece (Elt F) S1x1x4096 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Hand

end
-- ==== Proof.IdealFrame.lean ====
/-
  The frame of the kernel program, and what its two outputs hold after every point of the grid.
  Along a batch the scratch row carries the running column minima: the first row block stores its column minima, each
  later one folds its own in by a minimum, and the last one also copies the row into the second output's buffer; the
  first output's buffer is stored whole at every point. `outsAt` states, by recursion on the point, what the two output
  buffers and the scratch row hold after the body there; the region's invariant keeps the scratch row at that value
  between points. With these as proof data every point's body obligation is one of the three runs, and the launch
  theorem gives the run of the whole program: it terminates, nothing faults, each output array ends at what the
  write-backs left and the argument arrays as they were.
-/
import proofs.«130840_j14293651161196_2_alg».proof.Proof.IdealRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What this case leaves in the first output's buffer: its stores read back. -/
def out2_A (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) : Vec F S1x1x512 .f32 :=
  VO2.read (Elt F) (VO2.writes (Elt F) VO2.junk (runA c i arg2 harg2 arg3 harg3 arg4 harg4 arg5 harg5 arg6 harg6 hA hB hC x0 x1).1)
/-- Its stores tile that buffer. -/
theorem cover2_A (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) (y : S1x1x512.Idx) :
    ∃ pc ∈ (runA c i arg2 harg2 arg3 harg3 arg4 harg4 arg5 harg5 arg6 harg6 hA hB hC x0 x1).1, y ∈ pc.1.set :=
  View.cover_of_tiledL (runA c i arg2 harg2 arg3 harg3 arg4 harg4 arg5 harg5 arg6 harg6 hA hB hC x0 x1).1 S1x1x512.size (by sl_kernel_rfl) y
/-- What this case leaves in the scratch row. -/
def scr_A (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) : Vec F S1x4096 .f32 :=
  VS.read (Elt F) (VS.writes (Elt F) VS.junk (runA c i arg2 harg2 arg3 harg3 arg4 harg4 arg5 harg5 arg6 harg6 hA hB hC x0 x1).2.1)
/-- Its stores tile the scratch row. -/
theorem scover_A (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) (y : S1x4096.Idx) :
    ∃ pc ∈ (runA c i arg2 harg2 arg3 harg3 arg4 harg4 arg5 harg5 arg6 harg6 hA hB hC x0 x1).2.1, y ∈ pc.1.set :=
  View.cover_of_tiledL (runA c i arg2 harg2 arg3 harg3 arg4 harg4 arg5 harg5 arg6 harg6 hA hB hC x0 x1).2.1 S1x4096.size (by sl_kernel_rfl) y

/-- What this case leaves in the first output's buffer: its stores read back. -/
def out2_B (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) : Vec F S1x1x512 .f32 :=
  VO2.read (Elt F) (VO2.writes (Elt F) VO2.junk (runB c i arg2 harg2 arg3 harg3 arg4 harg4 arg5 harg5 arg6 harg6 hA hB hC x0 x1 xs).1)
/-- Its stores tile that buffer. -/
theorem cover2_B (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) (y : S1x1x512.Idx) :
    ∃ pc ∈ (runB c i arg2 harg2 arg3 harg3 arg4 harg4 arg5 harg5 arg6 harg6 hA hB hC x0 x1 xs).1, y ∈ pc.1.set :=
  View.cover_of_tiledL (runB c i arg2 harg2 arg3 harg3 arg4 harg4 arg5 harg5 arg6 harg6 hA hB hC x0 x1 xs).1 S1x1x512.size (by sl_kernel_rfl) y
/-- What this case leaves in the scratch row. -/
def scr_B (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) : Vec F S1x4096 .f32 :=
  VS.read (Elt F) (VS.writes (Elt F) VS.junk (runB c i arg2 harg2 arg3 harg3 arg4 harg4 arg5 harg5 arg6 harg6 hA hB hC x0 x1 xs).2.1)
/-- Its stores tile the scratch row. -/
theorem scover_B (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) (y : S1x4096.Idx) :
    ∃ pc ∈ (runB c i arg2 harg2 arg3 harg3 arg4 harg4 arg5 harg5 arg6 harg6 hA hB hC x0 x1 xs).2.1, y ∈ pc.1.set :=
  View.cover_of_tiledL (runB c i arg2 harg2 arg3 harg3 arg4 harg4 arg5 harg5 arg6 harg6 hA hB hC x0 x1 xs).2.1 S1x4096.size (by sl_kernel_rfl) y

/-- What this case leaves in the first output's buffer: its stores read back. -/
def out2_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) : Vec F S1x1x512 .f32 :=
  VO2.read (Elt F) (VO2.writes (Elt F) VO2.junk (runC c i arg2 harg2 arg3 harg3 arg4 harg4 arg5 harg5 arg6 harg6 hA hB hC x0 x1 xs).1)
/-- Its stores tile that buffer. -/
theorem cover2_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) (y : S1x1x512.Idx) :
    ∃ pc ∈ (runC c i arg2 harg2 arg3 harg3 arg4 harg4 arg5 harg5 arg6 harg6 hA hB hC x0 x1 xs).1, y ∈ pc.1.set :=
  View.cover_of_tiledL (runC c i arg2 harg2 arg3 harg3 arg4 harg4 arg5 harg5 arg6 harg6 hA hB hC x0 x1 xs).1 S1x1x512.size (by sl_kernel_rfl) y
/-- What this case leaves in the scratch row. -/
def scr_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) : Vec F S1x4096 .f32 :=
  VS.read (Elt F) (VS.writes (Elt F) VS.junk (runC c i arg2 harg2 arg3 harg3 arg4 harg4 arg5 harg5 arg6 harg6 hA hB hC x0 x1 xs).2.2.1)
/-- Its stores tile the scratch row. -/
theorem scover_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) (y : S1x4096.Idx) :
    ∃ pc ∈ (runC c i arg2 harg2 arg3 harg3 arg4 harg4 arg5 harg5 arg6 harg6 hA hB hC x0 x1 xs).2.2.1, y ∈ pc.1.set :=
  View.cover_of_tiledL (runC c i arg2 harg2 arg3 harg3 arg4 harg4 arg5 harg5 arg6 harg6 hA hB hC x0 x1 xs).2.2.1 S1x4096.size (by sl_kernel_rfl) y

/-- What the last case leaves in the second output's buffer. -/
def out3_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) : Vec F S1x1x4096 .f32 :=
  VO3.read (Elt F) (VO3.writes (Elt F) VO3.junk (runC c i arg2 harg2 arg3 harg3 arg4 harg4 arg5 harg5 arg6 harg6 hA hB hC x0 x1 xs).2.1)
/-- Its store tiles that buffer. -/
theorem cover3_C (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) (y : S1x1x4096.Idx) :
    ∃ pc ∈ (runC c i arg2 harg2 arg3 harg3 arg4 harg4 arg5 harg5 arg6 harg6 hA hB hC x0 x1 xs).2.1, y ∈ pc.1.set :=
  View.cover_of_tiledL (runC c i arg2 harg2 arg3 harg3 arg4 harg4 arg5 harg5 arg6 harg6 hA hB hC x0 x1 xs).2.1 S1x1x4096.size (by sl_kernel_rfl) y

/-- A placeholder for the second output's buffer at the points that leave it untouched and do not write it back. -/
def idle3 : Vec F S1x1x4096 .f32 := VO3.read (Elt F) (VO3.writes (Elt F) VO3.junk [])

/-! ## Which case a point is in, from its number -/

theorem isA (t : Fin cfg0.N) (h0 : t.val % 8 = 0) :
    atFirst (grid0.coords t) ∧ ¬pastFirst (grid0.coords t) ∧ ¬atLast (grid0.coords t) :=
  ⟨(atFirst_iff t).mpr h0, fun h => (pastFirst_iff t).mp h h0, fun h => by have := (atLast_iff t).mp h; omega⟩
theorem isB (t : Fin cfg0.N) (h0 : ¬t.val % 8 = 0) (h7 : ¬t.val % 8 = 7) :
    ¬atFirst (grid0.coords t) ∧ pastFirst (grid0.coords t) ∧ ¬atLast (grid0.coords t) :=
  ⟨fun h => h0 ((atFirst_iff t).mp h), (pastFirst_iff t).mpr h0, fun h => h7 ((atLast_iff t).mp h)⟩
theorem isC (t : Fin cfg0.N) (h7 : t.val % 8 = 7) :
    ¬atFirst (grid0.coords t) ∧ pastFirst (grid0.coords t) ∧ atLast (grid0.coords t) :=
  ⟨fun h => by have := (atFirst_iff t).mp h; omega, (pastFirst_iff t).mpr (by omega), (atLast_iff t).mpr h7⟩

/-! ## What the buffers hold after each point -/

/-- After the body at point `n`: the first output's buffer, the second output's buffer, the scratch row. -/
def outsAt (c : Dev nD) : (n : ℕ) → n < cfg0.N → Vec F S1x1x512 .f32 × Vec F S1x1x4096 .f32 × Vec F S1x4096 .f32
  | 0, hn => (out2_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (isA ⟨0, hn⟩ (Nat.zero_mod 8)).1 (isA ⟨0, hn⟩ (Nat.zero_mod 8)).2.1 (isA ⟨0, hn⟩ (Nat.zero_mod 8)).2.2 (iblk m c 0 ⟨0, hn⟩) (iblk m c 1 ⟨0, hn⟩), idle3, scr_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (isA ⟨0, hn⟩ (Nat.zero_mod 8)).1 (isA ⟨0, hn⟩ (Nat.zero_mod 8)).2.1 (isA ⟨0, hn⟩ (Nat.zero_mod 8)).2.2 (iblk m c 0 ⟨0, hn⟩) (iblk m c 1 ⟨0, hn⟩))
  | n + 1, hn =>
    if h0 : (n + 1) % 8 = 0 then
      (out2_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isA ⟨n + 1, hn⟩ h0).1 (isA ⟨n + 1, hn⟩ h0).2.1 (isA ⟨n + 1, hn⟩ h0).2.2 (iblk m c 0 ⟨n + 1, hn⟩) (iblk m c 1 ⟨n + 1, hn⟩), idle3, scr_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isA ⟨n + 1, hn⟩ h0).1 (isA ⟨n + 1, hn⟩ h0).2.1 (isA ⟨n + 1, hn⟩ h0).2.2 (iblk m c 0 ⟨n + 1, hn⟩) (iblk m c 1 ⟨n + 1, hn⟩))
    else if h7 : (n + 1) % 8 = 7 then
      (out2_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isC ⟨n + 1, hn⟩ h7).1 (isC ⟨n + 1, hn⟩ h7).2.1 (isC ⟨n + 1, hn⟩ h7).2.2 (iblk m c 0 ⟨n + 1, hn⟩) (iblk m c 1 ⟨n + 1, hn⟩) (outsAt c n (Nat.lt_of_succ_lt hn)).2.2, out3_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isC ⟨n + 1, hn⟩ h7).1 (isC ⟨n + 1, hn⟩ h7).2.1 (isC ⟨n + 1, hn⟩ h7).2.2 (iblk m c 0 ⟨n + 1, hn⟩) (iblk m c 1 ⟨n + 1, hn⟩) (outsAt c n (Nat.lt_of_succ_lt hn)).2.2, scr_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isC ⟨n + 1, hn⟩ h7).1 (isC ⟨n + 1, hn⟩ h7).2.1 (isC ⟨n + 1, hn⟩ h7).2.2 (iblk m c 0 ⟨n + 1, hn⟩) (iblk m c 1 ⟨n + 1, hn⟩) (outsAt c n (Nat.lt_of_succ_lt hn)).2.2)
    else
      (out2_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isB ⟨n + 1, hn⟩ h0 h7).1 (isB ⟨n + 1, hn⟩ h0 h7).2.1 (isB ⟨n + 1, hn⟩ h0 h7).2.2 (iblk m c 0 ⟨n + 1, hn⟩) (iblk m c 1 ⟨n + 1, hn⟩) (outsAt c n (Nat.lt_of_succ_lt hn)).2.2, idle3, scr_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (isB ⟨n + 1, hn⟩ h0 h7).1 (isB ⟨n + 1, hn⟩ h0 h7).2.1 (isB ⟨n + 1, hn⟩ h0 h7).2.2 (iblk m c 0 ⟨n + 1, hn⟩) (iblk m c 1 ⟨n + 1, hn⟩) (outsAt c n (Nat.lt_of_succ_lt hn)).2.2)

theorem outsAt_A (c : Dev nD) (t : Fin cfg0.N) (h0 : t.val % 8 = 0) :
    outsAt m c t.val t.isLt = (out2_A c (grid0.coords t) (ms0 t) (hs0 t) (ms1 t) (hs1 t) (ms2 t) (hs2 t) (ms3 t) (hs3 t) scM (Memref.isWhole_whole _) (isA t h0).1 (isA t h0).2.1 (isA t h0).2.2 (iblk m c 0 t) (iblk m c 1 t), idle3, scr_A c (grid0.coords t) (ms0 t) (hs0 t) (ms1 t) (hs1 t) (ms2 t) (hs2 t) (ms3 t) (hs3 t) scM (Memref.isWhole_whole _) (isA t h0).1 (isA t h0).2.1 (isA t h0).2.2 (iblk m c 0 t) (iblk m c 1 t)) := by
  obtain ⟨n, hn⟩ := t
  cases n with
  | zero => exact rfl
  | succ n => exact dif_pos h0

theorem outsAt_B (c : Dev nD) (t : Fin cfg0.N) (h0 : ¬t.val % 8 = 0) (h7 : ¬t.val % 8 = 7) :
    outsAt m c t.val t.isLt = (out2_B c (grid0.coords t) (ms0 t) (hs0 t) (ms1 t) (hs1 t) (ms2 t) (hs2 t) (ms3 t) (hs3 t) scM (Memref.isWhole_whole _) (isB t h0 h7).1 (isB t h0 h7).2.1 (isB t h0 h7).2.2 (iblk m c 0 t) (iblk m c 1 t) (outsAt m c (t.val - 1) (Nat.lt_of_le_of_lt (Nat.sub_le _ _) t.isLt)).2.2, idle3, scr_B c (grid0.coords t) (ms0 t) (hs0 t) (ms1 t) (hs1 t) (ms2 t) (hs2 t) (ms3 t) (hs3 t) scM (Memref.isWhole_whole _) (isB t h0 h7).1 (isB t h0 h7).2.1 (isB t h0 h7).2.2 (iblk m c 0 t) (iblk m c 1 t) (outsAt m c (t.val - 1) (Nat.lt_of_le_of_lt (Nat.sub_le _ _) t.isLt)).2.2) := by
  obtain ⟨n, hn⟩ := t
  cases n with
  | zero => exact absurd (Nat.zero_mod 8) h0
  | succ n => exact (dif_neg h0).trans ((dif_neg h7).trans rfl)

theorem outsAt_C (c : Dev nD) (t : Fin cfg0.N) (h0 : ¬t.val % 8 = 0) (h7 : t.val % 8 = 7) :
    outsAt m c t.val t.isLt = (out2_C c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2, out3_C c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2, scr_C c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2) := by
  obtain ⟨n, hn⟩ := t
  cases n with
  | zero => exact absurd (Nat.zero_mod 8) h0
  | succ n => exact (dif_neg h0).trans ((dif_pos h7).trans rfl)

/-- The region's invariant before point `n`: before the first point the scratch row holds anything; afterwards what the
    point before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
      unfold Dat.leavesExact; rw [live_0 t], after_0]
  rw [show (dats m 0 c).leavesExact 1 t = owns (c : Thread nD τ) (ms1 t) fullShare ((dats m 0 c).after 1 t) from by
      unfold Dat.leavesExact; rw [live_1 t], after_1]
  rw [show (dats m 0 c).leavesExact 2 t = owns (c : Thread nD τ) (ms2 t) fullShare ((dats m 0 c).after 2 t) from by
      unfold Dat.leavesExact; rw [live_2 t], after_2]
  by_cases h0 : t.val % 8 = 0
  · rw [Dat.leavesExact_idle (dats m 0 c) 3 t (idle_3 t (isA t h0).2.2) (noFlush_3 t (isA t h0).2.2)]
    rw [outsAt_A m c t h0]
    unfold out2_A scr_A; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ (isA t h0).1 (isA t h0).2.1 (isA t h0).2.2 (iblk m c 0 t) (iblk m c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ (isA t h0).1 (isA t h0).2.1 (isA t h0).2.2 (iblk m c 0 t) (iblk m c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
  · have hz : t.val ≠ 0 := fun h => h0 (by rw [h])
    by_cases h7 : t.val % 8 = 7
    · rw [show (dats m 0 c).leavesExact 3 t = owns (c : Thread nD τ) (ms3 t) fullShare ((dats m 0 c).after 3 t) from by
          unfold Dat.leavesExact; rw [live_3 t (isC t h7).2.2], after_3]
      rw [outsAt_C m c t h0 h7]
      unfold out2_C out3_C scr_C; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runC c (grid0.coords t) _ _ _ _ _ _ _ _ _ _ (isC t h7).1 (isC t h7).2.1 (isC t h7).2.2 (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (scover_C c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C c _ _ _ _ _ _ _ _ _ _ _ _ _ _ _ _ _)
      unfold owns; iexists _; isplitr
      swap; · iexact H3
      ipureintro; exact View.read_writes_of_cover _ _ _ _ _ (cover3_C c _ _ _ _ _ _ _ _ _ _ _ _ _ _ _ _ _)
    · rw [Dat.leavesExact_idle (dats m 0 c) 3 t (idle_3 t (isB t h0 h7).2.2) (noFlush_3 t (isB t h0 h7).2.2)]
      rw [outsAt_B m c t h0 h7]
      unfold out2_B scr_B; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runB c (grid0.coords t) _ _ _ _ _ _ _ _ _ _ (isB t h0 h7).1 (isB t h0 h7).2.1 (isB t h0 h7).2.2 (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B c _ _ _ _ _ _ _ _ _ _ _ _ _ _ _ _ _)
      iexists _; iexact H3

/-- The body obligation at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run of the whole program -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program terminates, nothing faults, and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.IdealPieces.lean ====
/-
  What the kernel's two output arrays hold after the run, on the extended reals.
  First, what each case of the body leaves in each buffer, as the body's arithmetic on the point's two blocks and on
  what the scratch row held.
-/
import proofs.«130840_j14293651161196_2_alg».proof.Proof.IdealFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

theorem out2_A_eq (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) :
    out2_A c i arg2 harg2 arg3 harg3 arg4 harg4 arg5 harg5 arg6 harg6 hA hB hC x0 x1 = k0_pay3 x0 x1 := by
  unfold out2_A
  rw [View.read_writes_eq_canon _ _ _ (cover2_A c i arg2 harg2 arg3 harg3 arg4 harg4 arg5 harg5 arg6 harg6 hA hB hC x0 x1)]
  unfold runA
  dsimp only
  try sl_unfold_words
  rw [View.canon_unit_zero hz3]
  simp only [View.readAt_eq_ld, harg2.read_unread, harg3.read_unread, harg6.read_unread, View.ld_unit_zero (S := S1x3x512) hz3, View.ld_unit_zero (S := S1x3x4096) hz3, View.ld_unit_zero (S := S1x4096) hz2]

theorem out2_B_eq (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) :
    out2_B c i arg2 harg2 arg3 harg3 arg4 harg4 arg5 harg5 arg6 harg6 hA hB hC x0 x1 xs = k0_pay3 x0 x1 := by
  unfold out2_B
  rw [View.read_writes_eq_canon _ _ _ (cover2_B c i arg2 harg2 arg3 harg3 arg4 harg4 arg5 harg5 arg6 harg6 hA hB hC x0 x1 xs)]
  unfold runB
  dsimp only
  try sl_unfold_words
  rw [View.canon_unit_zero hz3]
  simp only [View.readAt_eq_ld, harg2.read_unread, harg3.read_unread, harg6.read_unread, View.ld_unit_zero (S := S1x3x512) hz3, View.ld_unit_zero (S := S1x3x4096) hz3, View.ld_unit_zero (S := S1x4096) hz2]

theorem out2_C_eq (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) :
    out2_C c i arg2 harg2 arg3 harg3 arg4 harg4 arg5 harg5 arg6 harg6 hA hB hC x0 x1 xs = k0_pay3 x0 x1 := by
  unfold out2_C
  rw [View.read_writes_eq_canon _ _ _ (cover2_C c i arg2 harg2 arg3 harg3 arg4 harg4 arg5 harg5 arg6 harg6 hA hB hC x0 x1 xs)]
  unfold runC
  dsimp only
  try sl_unfold_words
  rw [View.canon_unit_zero hz3]
  simp only [View.readAt_eq_ld, harg2.read_unread, harg3.read_unread, harg6.read_unread, View.ld_unit_zero (S := S1x3x512) hz3, View.ld_unit_zero (S := S1x3x4096) hz3, View.ld_unit_zero (S := S1x4096) hz2]

theorem scr_A_eq (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : atFirst i) (hB : ¬pastFirst i) (hC : ¬atLast i) (x0 : Vec F S1x3x512 .f32) (x1 : Vec F S1x3x4096 .f32) :
    scr_A c i arg2 harg2 arg3 harg3 arg4 harg4 arg5 harg5 arg6 harg6 hA hB hC x0 x1 = k0_pay5 x0 x1 := by
  unfold scr_A
  rw [View.read_writes_eq_canon _ _ _ (scover_A c i arg2 harg2 arg3 harg3 arg4 harg4 arg5 harg5 arg6 harg6 hA hB hC x0 x1)]
  unfold runA
  dsimp only
  try sl_unfold_words
  rw [View.canon_unit_zero hz2]
  simp only [View.readAt_eq_ld, harg2.read_unread, harg3.read_unread, harg6.read_unread, View.ld_unit_zero (S := S1x3x512) hz3, View.ld_unit_zero (S := S1x3x4096) hz3, View.ld_unit_zero (S := S1x4096) hz2]

theorem scr_B_eq (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : ¬atLast i) (x0 : Vec F S1x3x512 .f32) (x1 : Vec F S1x3x4096 .f32) (xs : Vec F S1x4096 .f32) :
    scr_B c i arg2 harg2 arg3 harg3 arg4 harg4 arg5 harg5 arg6 harg6 hA hB hC x0 x1 xs = k0_pay6 x0 x1 xs := by
  unfold scr_B
  rw [View.read_writes_eq_canon _ _ _ (scover_B c i arg2 harg2 arg3 harg3 arg4 harg4 arg5 harg5 arg6 harg6 hA hB hC x0 x1 xs)]
  unfold runB
  dsimp only
  try sl_unfold_words
  rw [View.canon_unit_zero hz2]
  simp only [View.readAt_eq_ld, harg2.read_unread, harg3.read_unread, harg6.read_unread, View.ld_unit_zero (S := S1x3x512) hz3, View.ld_unit_zero (S := S1x3x4096) hz3, View.ld_unit_zero (S := S1x4096) hz2]

theorem scr_C_eq (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) :
    scr_C c i arg2 harg2 arg3 harg3 arg4 harg4 arg5 harg5 arg6 harg6 hA hB hC x0 x1 xs = k0_pay6 x0 x1 xs := by
  unfold scr_C
  rw [View.read_writes_eq_canon _ _ _ (scover_C c i arg2 harg2 arg3 harg3 arg4 harg4 arg5 harg5 arg6 harg6 hA hB hC x0 x1 xs)]
  unfold runC
  dsimp only
  try sl_unfold_words
  rw [View.canon_unit_zero hz2]
  simp only [View.readAt_eq_ld, harg2.read_unread, harg3.read_unread, harg6.read_unread, View.ld_unit_zero (S := S1x3x512) hz3, View.ld_unit_zero (S := S1x3x4096) hz3, View.ld_unit_zero (S := S1x4096) hz2]

theorem out3_C_eq (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (arg6 : Memref sig .tc .vmem S1x4096 .f32) (harg6 : arg6.IsWhole)
    (hA : ¬atFirst i) (hB : pastFirst i) (hC : atLast i) (x0 : Vec F S1x3x512 .f32) (x1 : Vec F S1x3x4096 .f32) (xs : Vec F S1x4096 .f32) :
    out3_C c i arg2 harg2 arg3 harg3 arg4 harg4 arg5 harg5 arg6 harg6 hA hB hC x0 x1 xs = k0_pay1 (k0_pay6 x0 x1 xs) := by
  unfold out3_C
  rw [View.read_writes_eq_canon _ _ _ (cover3_C c i arg2 harg2 arg3 harg3 arg4 harg4 arg5 harg5 arg6 harg6 hA hB hC x0 x1 xs)]
  unfold runC
  dsimp only
  try sl_unfold_words
  rw [View.canon_unit_zero hz3, View.readCov_unit_zero (S := S1x4096) _ hz2]
  simp only [View.readAt_eq_ld, harg2.read_unread, harg3.read_unread, harg6.read_unread, View.ld_unit_zero (S := S1x3x512) hz3, View.ld_unit_zero (S := S1x3x4096) hz3, View.ld_unit_zero (S := S1x4096) hz2]

/-! ## What the buffers hold after a point, as the body's arithmetic on the point's blocks -/

theorem first_at (c : Dev nD) (t : Fin cfg0.N) :
    (outsAt m c t.val t.isLt).1 = k0_pay3 (iblk m c 0 t) (iblk m c 1 t) := by
  by_cases h0 : t.val % 8 = 0
  · have e := out2_A_eq c (grid0.coords t) (ms0 t) (hs0 t) (ms1 t) (hs1 t) (ms2 t) (hs2 t) (ms3 t) (hs3 t) scM (Memref.isWhole_whole _) (isA t h0).1 (isA t h0).2.1 (isA t h0).2.2 (iblk m c 0 t) (iblk m c 1 t)
    rw [outsAt_A m c t h0]; dsimp only; exact e
  · by_cases h7 : t.val % 8 = 7
    · have e := out2_C_eq c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2
      rw [outsAt_C m c t h0 h7]; dsimp only; exact e
    · have e := out2_B_eq c (grid0.coords t) (ms0 t) (hs0 t) (ms1 t) (hs1 t) (ms2 t) (hs2 t) (ms3 t) (hs3 t) scM (Memref.isWhole_whole _) (isB t h0 h7).1 (isB t h0 h7).2.1 (isB t h0 h7).2.2 (iblk m c 0 t) (iblk m c 1 t) (outsAt m c (t.val - 1) (Nat.lt_of_le_of_lt (Nat.sub_le _ _) t.isLt)).2.2
      rw [outsAt_B m c t h0 h7]; dsimp only; exact e

theorem scr_first (c : Dev nD) (t : Fin cfg0.N) (h0 : t.val % 8 = 0) :
    (outsAt m c t.val t.isLt).2.2 = k0_pay5 (iblk m c 0 t) (iblk m c 1 t) := by
  have e := scr_A_eq c (grid0.coords t) (ms0 t) (hs0 t) (ms1 t) (hs1 t) (ms2 t) (hs2 t) (ms3 t) (hs3 t) scM (Memref.isWhole_whole _) (isA t h0).1 (isA t h0).2.1 (isA t h0).2.2 (iblk m c 0 t) (iblk m c 1 t)
  rw [outsAt_A m c t h0]; dsimp only; exact e

theorem scr_later (c : Dev nD) (t : Fin cfg0.N) (h0 : ¬t.val % 8 = 0) :
    (outsAt m c t.val t.isLt).2.2 = k0_pay6 (iblk m c 0 t) (iblk m c 1 t)
      (outsAt m c (t.val - 1) (Nat.lt_of_le_of_lt (Nat.sub_le _ _) t.isLt)).2.2 := by
  by_cases h7 : t.val % 8 = 7
  · have e := scr_C_eq c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2
    rw [outsAt_C m c t h0 h7]; dsimp only; exact e
  · have e := scr_B_eq c (grid0.coords t) (ms0 t) (hs0 t) (ms1 t) (hs1 t) (ms2 t) (hs2 t) (ms3 t) (hs3 t) scM (Memref.isWhole_whole _) (isB t h0 h7).1 (isB t h0 h7).2.1 (isB t h0 h7).2.2 (iblk m c 0 t) (iblk m c 1 t) (outsAt m c (t.val - 1) (Nat.lt_of_le_of_lt (Nat.sub_le _ _) t.isLt)).2.2
    rw [outsAt_B m c t h0 h7]; dsimp only; exact e

theorem second_last (c : Dev nD) (t : Fin cfg0.N) (h7 : t.val % 8 = 7) :
    (outsAt m c t.val t.isLt).2.1 = k0_pay1 (outsAt m c t.val t.isLt).2.2 := by
  have h0 : ¬t.val % 8 = 0 := by omega
  have e1 := out3_C_eq c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2
  have e2 := scr_C_eq c (grid0.coords t) (ms0 t) (hs0 t) (ms1 t) (hs1 t) (ms2 t) (hs2 t) (ms3 t) (hs3 t) scM (Memref.isWhole_whole _) (isC t h7).1 (isC t h7).2.1 (isC t h7).2.2 (iblk m c 0 t) (iblk m c 1 t) (outsAt m c (t.val - 1) (Nat.lt_of_le_of_lt (Nat.sub_le _ _) t.isLt)).2.2
  rw [outsAt_C m c t h0 h7]; dsimp only
  exact e1.trans (congrArg k0_pay1 e2.symm)

end Cert.KernelIdeal.Hand

end
-- ==== Proof.Spec.lean ====
/-
  The two-sided nearest-neighbour squared distance between two clouds of 4096 points in 3-space, batched 8 times:
  for points x_n and y_m the clamped squared distance is max(|x_n|^2 + |y_m|^2 - 2 <x_n, y_m>, 0); for each x_n the
  least such value over m, for each y_m the least over n; the result is the mean over the batch of the sum of the two
  means. Stated on the extended reals, index by index.
-/
import Idealize.ShloMosaic.PureOps
import Idealize.ShloMosaic.PureOps.Ideal
import Idealize.ShloMosaic.Lib.ValueIdx

noncomputable section

namespace Cert.Chamfer

open Idealize.ShloMosaic Idealize.ShloMosaic.ValueIdx

/-- A batch of point clouds: 8 clouds of 4096 points with 3 coordinates. -/
abbrev SPts : Shape := ⟨3, ![8, 4096, 3]⟩
/-- One value per point of each cloud. -/
abbrev SMin : Shape := ⟨2, ![8, 4096]⟩
/-- One value per cloud. -/
abbrev SB : Shape := ⟨1, ![8]⟩
/-- A scalar. -/
abbrev S0 : Shape := ⟨0, ![]⟩

/-- The clamped squared distance of two points given by their coordinates: |u|^2 + |v|^2 - 2 <u, v>, not below 0. -/
def d2pt (u v : Fin 3 → EReal) : EReal :=
  max (((∑ d, u d * u d) + (∑ d, v d * v d)) - 2 * ∑ d, u d * v d) 0

/-- The clamped squared distance between point `n` of the first cloud and point `m` of the second, in batch `b`. -/
def d2 (X Y : SPts.Idx → EReal) (b : Fin 8) (n m : Fin 4096) : EReal :=
  d2pt (fun d => X (ix3 b n d)) (fun d => Y (ix3 b m d))

/-- For each point of the first cloud, its least clamped squared distance to the second cloud. -/
def min1 (X Y : SPts.Idx → EReal) : SMin.Idx → EReal := fun j => ⨅ m : Fin 4096, d2 X Y (j 0) (j 1) m

/-- For each point of the second cloud, its least clamped squared distance to the first cloud. -/
def min2 (X Y : SPts.Idx → EReal) : SMin.Idx → EReal := fun j => ⨅ n : Fin 4096, d2 X Y (j 0) n (j 1)

/-- The mean over the batch of (mean of the first array's row + mean of the second array's row), as the host computes
    it: row sums from zero, divided by 4096; added; summed from zero; divided by 8. -/
def tail (h1 : SMin.ReducesTo [1] SB) (h0 : 0 < S0.numel) (hb : S0.BroadcastsInDim SB (![] : Fin 0 → Fin SB.rank))
    (h2 : SB.ReducesTo [0] S0) (a1 a2 : FVec Ideal SMin .f32) : FVec Ideal S0 .f32 :=
  Host.divf (F := Ideal)
    (Host.reduceAdd (F := Ideal)
      (addf (F := Ideal)
        (Host.divf (F := Ideal) (Host.reduceAdd (F := Ideal) a1 (constant (F := Ideal) S0 .f32 0x00000000#32) h1 h0)
          (broadcastInDim SB ![] hb (constant (F := Ideal) S0 .f32 0x45800000#32)))
        (Host.divf (F := Ideal) (Host.reduceAdd (F := Ideal) a2 (constant (F := Ideal) S0 .f32 0x00000000#32) h1 h0)
          (broadcastInDim SB ![] hb (constant (F := Ideal) S0 .f32 0x45800000#32))))
      (constant (F := Ideal) S0 .f32 0x00000000#32) h2 h0)
    (constant (F := Ideal) S0 .f32 0x41000000#32)

end Cert.Chamfer

end
-- ==== Proof.LibMinReduce.lean ====
/-
  Minimum reductions on the extended reals, by their universal property: a value is below a minimum exactly when it
  is below every element (and below the starting value). Stated for a vector minimum along one axis, for the host's
  minimum of a whole array down to a scalar, and joined by the fact that the square root is monotone, so that the
  square root of a least element is the least of the square roots.
-/
import Idealize.ShloMosaic.PureOps.Ideal
import Idealize.ShloMosaic.PureOps.Ideal.Laws
import Idealize.ShloMosaic.PureOps.Reduce
import Idealize.ShloMosaic.Lib.ValueIdx

noncomputable section

namespace Cert.LibMinReduce

open Idealize.ShloMosaic Idealize.ShloMosaic.ValueIdx

/-- The f32 pattern of +infinity is the top element. -/
theorem ofBits_inf : Ideal.ofBits .f32 0x7F800000#32 = (⊤ : EReal) := by
  simp [Ideal.ofBits, Ideal.ieee]

/-- The f32 pattern of 1.0 is one. -/
theorem ofBits_one : Ideal.ofBits .f32 0x3F800000#32 = (1 : EReal) := by
  simp [Ideal.ofBits, Ideal.ieee, -EReal.coe_mul]; norm_num

/-- The square root of the extended reals (bottom below zero) is monotone. -/
theorem sqrt_mono : Monotone Ideal.sqrt := by
  intro a b hab
  induction a using EReal.rec with
  | bot => exact bot_le
  | top =>
    have hb : b = ⊤ := top_le_iff.mp hab
    subst hb; exact le_rfl
  | coe r =>
    induction b using EReal.rec with
    | bot => exact absurd hab (by simp)
    | top => exact le_top
    | coe s =>
      have hrs : r ≤ s := EReal.coe_le_coe_iff.mp hab
      simp only [Ideal.sqrt_coe]
      split_ifs with h1 h2
      · exact le_rfl
      · exact bot_le
      · exfalso; linarith
      · exact EReal.coe_le_coe_iff.mpr (Real.sqrt_le_sqrt hrs)

/-- If `M` is the greatest lower bound of finitely many nonnegative values `d i` and `R` the greatest lower bound of
    their square roots, then `R` is the square root of `M` (clamped at zero, which changes nothing): the least value is
    attained, and the square root keeps order. -/
theorem sqrt_glb {ι : Type*} [Finite ι] [Nonempty ι] (d : ι → EReal) (hd : ∀ i, 0 ≤ d i) (M R : EReal)
    (hM : ∀ z, z ≤ M ↔ ∀ i, z ≤ d i) (hR : ∀ z, z ≤ R ↔ ∀ i, z ≤ Ideal.sqrt (d i)) :
    Ideal.sqrt (max M 0) = R := by
  have hM0 : 0 ≤ M := (hM 0).mpr hd
  rw [max_eq_left hM0]
  obtain ⟨i0, hi0⟩ := Finite.exists_min d
  have hMi : M = d i0 := le_antisymm ((hM M).mp le_rfl i0) ((hM _).mpr hi0)
  apply le_antisymm
  · exact (hR _).mpr fun i => sqrt_mono ((hM M).mp le_rfl i)
  · rw [hMi]; exact (hR R).mp le_rfl i0

/-- A vector minimum along one axis, from the accumulator's value: below it is below the accumulator and below every
    element of the reduced line. -/
theorem le_multiReduction_min {s t : Shape} {a : Fin s.rank} {φ : FTy} (src : FVec Ideal s φ) (acc : BitVec φ.bits)
    (h : s.Reduces [a] t) (hφ : FKind.Formats φ) (hacc : acc = FKind.minimumf.neutral φ hφ) (j : t.Idx) (z : EReal) :
    z ≤ multiReduction .minimumf [a] t src acc h hφ hacc j
      ↔ z ≤ Ideal.ofBits φ acc ∧ ∀ k : Fin (s.size a), z ≤ src (h.lift j k) := by
  classical
  rw [multiReduction_minimumf_eq_fold, h.fold_filter_drop_single]
  refine (Finset.le_fold_min (s := (Finset.univ : Finset (Fin (s.size a)))) (f := src ∘ h.lift j)
    (b := Ideal.ofBits φ acc) z).trans ?_
  simp only [Finset.mem_univ, true_implies, Function.comp_apply]

/-- Over row `r` of an `[R, W]` array, the index with column `k` inserted is `(r, k)`. -/
theorem lift_row {R W : ℕ} (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- Down the one column of an `[R, 1]` array, the index with row `k` inserted is `(k, 0)`. -/
theorem lift_col {R : ℕ} (h : (⟨2, ![R, 1]⟩ : Shape).Reduces [0] ⟨1, ![1]⟩) (j : (⟨1, ![1]⟩ : Shape).Idx) (k : Fin R) :
    h.lift j k = ix2 k (0 : Fin 1) := by
  funext c
  match c with
  | ⟨0, _⟩ => exact Fin.ext rfl
  | ⟨1, hc⟩ => exact Fin.ext (by
      have hlt : (h.lift j k ⟨1, hc⟩).val < 1 := (h.lift j k ⟨1, hc⟩).isLt
      show (h.lift j k ⟨1, hc⟩).val = 0
      omega)

/-- A row minimum of an `[R, W]` array from +infinity: below it is below every entry of the row. -/
theorem le_rowMin {R W : ℕ} (src : FVec Ideal ⟨2, ![R, W]⟩ .f32) (h : (⟨2, ![R, W]⟩ : Shape).Reduces [1] ⟨1, ![R]⟩)
    (hφ : FKind.Formats .f32) (hacc : (0x7F800000#32 : BitVec 32) = FKind.minimumf.neutral .f32 hφ) (r : Fin R) (z : EReal) :
    z ≤ multiReduction .minimumf [1] ⟨1, ![R]⟩ src 0x7F800000#32 h hφ hacc (ix1 r) ↔ ∀ p : Fin W, z ≤ src (ix2 r p) := by
  refine (le_multiReduction_min src _ h hφ hacc (ix1 r) z).trans ?_
  rw [ofBits_inf]
  constructor
  · intro hh p
    have := hh.2 p
    rwa [lift_row h r p] at this
  · intro hh
    exact ⟨le_top, fun k => by rw [lift_row h r k]; exact hh k⟩

/-- The minimum down the one column of an `[R, 1]` array from +infinity: below it is below every entry. -/
theorem le_colMin {R : ℕ} (src : FVec Ideal ⟨2, ![R, 1]⟩ .f32) (h : (⟨2, ![R, 1]⟩ : Shape).Reduces [0] ⟨1, ![1]⟩)
    (hφ : FKind.Formats .f32) (hacc : (0x7F800000#32 : BitVec 32) = FKind.minimumf.neutral .f32 hφ)
    (j : (⟨1, ![1]⟩ : Shape).Idx) (z : EReal) :
    z ≤ multiReduction .minimumf [0] ⟨1, ![1]⟩ src 0x7F800000#32 h hφ hacc j ↔ ∀ r : Fin R, z ≤ src (ix2 r (0 : Fin 1)) := by
  refine (le_multiReduction_min src _ h hφ hacc j z).trans ?_
  rw [ofBits_inf]
  constructor
  · intro hh r
    have := hh.2 r
    rwa [lift_col h j r] at this
  · intro hh
    exact ⟨le_top, fun k => by rw [lift_col h j k]; exact hh k⟩

/-- The host's minimum of a whole array down to a scalar, from an initial value: below it is below the initial value
    and below every element. -/
theorem le_hostReduce_min {s u : Shape} {axes : List (Fin s.rank)} (x : s.Idx → EReal) (init : u.Idx → EReal)
    (h : s.ReducesTo axes ⟨0, ![]⟩) (hu : 0 < u.numel) (j : (⟨0, ![]⟩ : Shape).Idx) (z : EReal) :
    z ≤ Host.reduce (FloatOps.minimumf (F := Ideal) (φ := .f32)) x init h hu j
      ↔ z ≤ init (Shape.Idx.first hu) ∧ ∀ i : s.Idx, z ≤ x i := by
  classical
  rw [Host.reduce_eq_fold]
  have hall : (Finset.univ.filter fun i : s.Idx => h.drop i = j) = Finset.univ :=
    Finset.filter_true_of_mem fun i _ => funext fun b => b.elim0
  rw [hall]
  refine (Finset.le_fold_min (s := (Finset.univ : Finset s.Idx)) (f := x)
    (b := init (Shape.Idx.first hu)) z).trans ?_
  simp only [Finset.mem_univ, true_implies]

end Cert.LibMinReduce

end
-- ==== Proof.LibLaneSum.lean ====
/-
  An f32 `vector.multi_reduction <add>` from the zero word, read on the extended reals as a finite sum.

  `laneSum_apply`: for any source shape, any single reduced axis `a` and any result index `j`, the reduction is the sum
  over `k : Fin (size of axis a)` of the source at `j` with `k` inserted on axis `a`. The accumulator's neutrality is
  taken as an equation between zero words, `0#32 = 0#32`, so the lemma applies by `.trans` to a reduction whose
  neutrality proof is `rfl` on the word.
  `lift_mid`: for a rank-3 source reduced over its middle axis, inserting `k` into `(r, p)` gives `(r, k, p)`.
  `midSum_apply`: the two together — an [A, B, C] array summed over its middle axis is, at `(r, p)`, the sum over
  `k : Fin B` of the entries `(r, k, p)`.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.LaneSum

/-- An f32 add-reduction over one axis from the zero word is the plain sum over that axis. -/
theorem laneSum_apply {s t : Shape} {a : Fin s.rank} (src : FVec Ideal s .f32) (h : s.Reduces [a] t)
    (hφ : FKind.Formats FTy.f32) (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- Inserting `k` on the middle axis of `(r, p)` gives `(r, k, p)`. -/
theorem lift_mid {A B C : Nat} (h : (⟨3, ![A, B, C]⟩ : Shape).Reduces [1] ⟨2, ![A, C]⟩) (r : Fin A) (k : Fin B) (p : Fin C) :
    h.lift (ix2 r p) k = ix3 r k p := by
  funext d
  match d with
  | ⟨0, _⟩ => rfl
  | ⟨1, _⟩ => rfl
  | ⟨2, _⟩ => rfl

/-- An [A, B, C] array summed over its middle axis from the zero word: at `(r, p)`, the sum over `k` of `(r, k, p)`. -/
theorem midSum_apply {A B C : Nat} (src : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (r : Fin A) (p : Fin C) :
    multiReduction .add [1] ⟨2, ![A, C]⟩ src 0x00000000#32 h hφ hacc (ix2 r p) = ∑ k : Fin B, src (ix3 r k p) :=
  (laneSum_apply src h hφ hacc (ix2 r p)).trans (Finset.sum_congr rfl fun k _ => congrArg src (lift_mid h r k p))

end Cert.LaneSum

end
-- ==== Proof.PayIdeal.lean ====
/-
  One tile of the two-sided nearest-neighbour squared distance, read entry by entry on the extended reals.

  The tile is the 512 x 4096 array of clamped squared distances between 512 points x_t of the first cloud and the 4096
  points y_m of the second, obtained as a single product L^T R of two stacked arrays: L stacks the rows (-2 x_t ; |x_t|^2 ; 1)
  and R stacks the rows (y_m ; 1 ; |y_m|^2), so that the entry (t, m) of L^T R is
    -2 <x_t, y_m> + |x_t|^2 * 1 + 1 * |y_m|^2,
  which for finite coordinates is |x_t|^2 + |y_m|^2 - 2 <x_t, y_m>; the tile is this value clamped below at 0.
  From the tile: its row minima (for each x_t the least distance to a y_m), its column minima (for each y_m the least
  distance to an x_t of this tile), and the running minimum of the column minima with what earlier tiles left.
  The minima are stated by their universal property: a value is below a minimum exactly when it is below every entry.
-/
import proofs.«130840_j14293651161196_2_alg».proof.Proof.Spec
import proofs.«130840_j14293651161196_2_alg».proof.Proof.LibMinReduce
import proofs.«130840_j14293651161196_2_alg».proof.Proof.LibLaneSum
import proofs.«130840_j14293651161196_2_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws
import Mathlib.Tactic

noncomputable section

namespace Cert.Chamfer.Pay

open Idealize.ShloMosaic Idealize.ShloMosaic.ValueIdx Cert.KernelIdeal Cert.KernelIdeal.Gen
open scoped BigOperators

/-! ## Reshapes and reductions at an index -/

/-- A vector of length `a` viewed as `[1, 1, a]` reads, at `(0, 0, i)`, the entry `i`. -/
theorem shapeCast_a_11a_apply {α : Type} {a : ℕ} (x : (⟨1, ![a]⟩ : Shape).Idx → α)
    (h : (⟨1, ![a]⟩ : Shape).ShapeCasts ⟨3, ![1, 1, a]⟩) (i : Fin a) :
    shapeCast ⟨3, ![1, 1, a]⟩ x h (ix3 (0 : Fin 1) (0 : Fin 1) i) = x (ix1 i) :=
  shapeCast_apply x h _ _ (by
    rw [Shape.rowMajor_val_three, Shape.rowMajor_val_one]
    show i.val = (0 * 1 + 0) * a + i.val
    omega)

/-- Down column `c` of an `[R, W]` array, the index with row `k` inserted is `(k, c)`. -/
theorem lift_colAxis {R W : ℕ} (h : (⟨2, ![R, W]⟩ : Shape).Reduces [0] ⟨1, ![W]⟩) (c : Fin W) (k : Fin R) :
    h.lift (ix1 c) k = ix2 k c := by
  funext a
  match a with
  | ⟨0, _⟩ => exact Fin.ext rfl
  | ⟨1, _⟩ => exact Fin.ext rfl

/-- A column minimum of an `[R, W]` array from +infinity: below it is below every entry of the column. -/
theorem le_colMinW {R W : ℕ} (src : FVec Ideal ⟨2, ![R, W]⟩ .f32) (h : (⟨2, ![R, W]⟩ : Shape).Reduces [0] ⟨1, ![W]⟩)
    (hφ : FKind.Formats .f32) (hacc : (0x7F800000#32 : BitVec 32) = FKind.minimumf.neutral .f32 hφ) (c : Fin W) (z : EReal) :
    z ≤ multiReduction .minimumf [0] ⟨1, ![W]⟩ src 0x7F800000#32 h hφ hacc (ix1 c) ↔ ∀ r : Fin R, z ≤ src (ix2 r c) := by
  refine (Cert.LibMinReduce.le_multiReduction_min src _ h hφ hacc (ix1 c) z).trans ?_
  rw [Cert.LibMinReduce.ofBits_inf]
  constructor
  · intro hh r
    have := hh.2 r
    rwa [lift_colAxis h c r] at this
  · intro hh
    exact ⟨le_top, fun k => by rw [lift_colAxis h c k]; exact hh k⟩

variable (x0 : Vec Ideal S1x3x512 .f32) (x1 : Vec Ideal S1x3x4096 .f32) (s : Vec Ideal S1x4096 .f32)

/-! ## The minima, the running minimum and the reshaped carried row -/

/-- The row minima: below the minimum of row `t` is below every entry of the row. -/
theorem le_pay3 (t : Fin 512) (z : EReal) :
    z ≤ k0_pay3 (F := Ideal) x0 x1 (ix3 0 0 t) ↔ ∀ m : Fin 4096, z ≤ k0_pay2 (F := Ideal) x0 x1 (ix2 t m) := by
  unfold k0_pay3
  show z ≤ shapeCast S1x1x512 _ shapeCasts_S512_S1x1x512 (ix3 0 0 t) ↔ _
  rw [shapeCast_a_11a_apply]
  exact Cert.LibMinReduce.le_rowMin _ _ _ _ t z

/-- The column minima: below the minimum of column `m` is below every entry of the column. -/
theorem le_pay4 (m : Fin 4096) (z : EReal) :
    z ≤ k0_pay4 (F := Ideal) x0 x1 (ix2 0 m) ↔ ∀ t : Fin 512, z ≤ k0_pay2 (F := Ideal) x0 x1 (ix2 t m) := by
  unfold k0_pay4
  show z ≤ shapeCast S1x4096 _ shapeCasts_S4096_S1x4096 (ix2 0 m) ↔ _
  rw [shapeCast_a_1a_apply]
  exact le_colMinW _ _ _ _ m z

/-- The column minima viewed at their own shape are themselves. -/
theorem pay5_eq : k0_pay5 (F := Ideal) x0 x1 = k0_pay4 (F := Ideal) x0 x1 := by
  unfold k0_pay5
  exact shapeCast_self _ _

/-- The running minimum: entry `m` is the lesser of what was there and the column minimum. -/
theorem pay6_apply (m : Fin 4096) :
    k0_pay6 (F := Ideal) x0 x1 s (ix2 0 m) = min (s (ix2 0 m)) (k0_pay4 (F := Ideal) x0 x1 (ix2 0 m)) := by
  unfold k0_pay6
  exact (congrFun (shapeCast_self _ shapeCasts_S1x4096_S1x4096) (ix2 0 m)).trans (minimumf_apply _ _ _)

/-- The carried row of running minima viewed as `[1, 1, 4096]` reads the same entries. -/
theorem pay1_apply (m : Fin 4096) : k0_pay1 (F := Ideal) s (ix3 0 0 m) = s (ix2 0 m) := by
  unfold k0_pay1
  show shapeCast S1x1x4096 _ shapeCasts_S4096_S1x1x4096 (ix3 0 0 m) = _
  rw [shapeCast_a_11a_apply]
  exact shapeCast_1a_a_apply s shapeCasts_S1x4096_S4096 m

/-! ## The tile -/

/-- The f32 pattern of -2.0 is minus two. -/
theorem ofBits_neg_two : Ideal.ofBits .f32 0xC0000000#32 = ((-2 : ℝ) : EReal) := by
  simp [Ideal.ofBits, Ideal.ieee, -EReal.coe_mul]; norm_num

section Concat
variable {α : Type} {N : ℕ} (p0 : (⟨2, ![3, N]⟩ : Shape).Idx → α) (p1 p2 : (⟨2, ![1, N]⟩ : Shape).Idx → α)
  (h : Shape.Concatenates [(⟨2, ![3, N]⟩ : Shape), ⟨2, ![1, N]⟩, ⟨2, ![1, N]⟩] ⟨2, ![5, N]⟩ 0)

/-- Three rows, one row and one row stacked: rows 0 to 2 of the stack are the rows of the first piece. -/
theorem concat_top (r : Fin 3) (q : Fin 5) (hq : q.val = r.val) (c : Fin N) :
    concatenate ⟨2, ![5, N]⟩ 0 [⟨⟨2, ![3, N]⟩, p0⟩, ⟨⟨2, ![1, N]⟩, p1⟩, ⟨⟨2, ![1, N]⟩, p2⟩] h (ix2 q c) = p0 (ix2 r c) :=
  concatenate_apply_piece 0 [⟨⟨2, ![3, N]⟩, p0⟩, ⟨⟨2, ![1, N]⟩, p1⟩, ⟨⟨2, ![1, N]⟩, p2⟩] h (ix2 q c) 0 (by simp) ⟨2, ![3, N]⟩ p0 rfl rfl 0 rfl (ix2 r c)
    (by
      intro b hb
      match b, hb with
      | ⟨0, _⟩, hb => exact absurd (Fin.ext rfl) hb
      | ⟨1, _⟩, _ => rfl)
    (by show 0 + r.val = q.val; omega)

/-- Row 3 of the stack is the one row of the second piece. -/
theorem concat_mid (c : Fin N) :
    concatenate ⟨2, ![5, N]⟩ 0 [⟨⟨2, ![3, N]⟩, p0⟩, ⟨⟨2, ![1, N]⟩, p1⟩, ⟨⟨2, ![1, N]⟩, p2⟩] h (ix2 (3 : Fin 5) c)
      = p1 (ix2 (0 : Fin 1) c) :=
  concatenate_apply_piece 0 [⟨⟨2, ![3, N]⟩, p0⟩, ⟨⟨2, ![1, N]⟩, p1⟩, ⟨⟨2, ![1, N]⟩, p2⟩] h (ix2 (3 : Fin 5) c) 1 (by simp) ⟨2, ![1, N]⟩ p1 rfl rfl 3 rfl (ix2 (0 : Fin 1) c)
    (by
      intro b hb
      match b, hb with
      | ⟨0, _⟩, hb => exact absurd (Fin.ext rfl) hb
      | ⟨1, _⟩, _ => rfl)
    rfl

/-- Row 4 of the stack is the one row of the third piece. -/
theorem concat_bot (c : Fin N) :
    concatenate ⟨2, ![5, N]⟩ 0 [⟨⟨2, ![3, N]⟩, p0⟩, ⟨⟨2, ![1, N]⟩, p1⟩, ⟨⟨2, ![1, N]⟩, p2⟩] h (ix2 (4 : Fin 5) c)
      = p2 (ix2 (0 : Fin 1) c) :=
  concatenate_apply_piece 0 [⟨⟨2, ![3, N]⟩, p0⟩, ⟨⟨2, ![1, N]⟩, p1⟩, ⟨⟨2, ![1, N]⟩, p2⟩] h (ix2 (4 : Fin 5) c) 2 (by simp) ⟨2, ![1, N]⟩ p2 rfl rfl 4 rfl (ix2 (0 : Fin 1) c)
    (by
      intro b hb
      match b, hb with
      | ⟨0, _⟩, hb => exact absurd (Fin.ext rfl) hb
      | ⟨1, _⟩, _ => rfl)
    rfl

end Concat

/-- A `[3, N]` array summed down its columns from the zero word: at `c`, the sum of the three entries of column `c`. -/
theorem colSum_apply {N : ℕ} (v : FVec Ideal ⟨2, ![3, N]⟩ .f32) (h : (⟨2, ![3, N]⟩ : Shape).Reduces [0] ⟨1, ![N]⟩)
    (hφ : FKind.Formats FTy.f32) (hacc : (0x00000000#32 : BitVec 32) = 0x00000000#32) (c : Fin N) :
    multiReduction .add [0] ⟨1, ![N]⟩ v 0x00000000#32 h hφ hacc (ix1 c) = ∑ d : Fin 3, v (ix2 d c) :=
  (Cert.LaneSum.laneSum_apply v h hφ hacc (ix1 c)).trans
    (Finset.sum_congr rfl fun k _ => congrArg v (lift_colAxis h c k))

section Dot
variable [Cert.KernelIdeal.Facts₀]

theorem dot_lhs1 (i : S512x4096.Idx) (q : dot_S5x512_S5x4096_S512x4096_0_0_1_1_n_n.contr.Idx) :
    (dot_S5x512_S5x4096_S512x4096_0_0_1_1_n_n.lhsIdx i q 1).val = (i 0).val := by
  unfold DotDims.lhsIdx
  rw [dif_neg (show ¬(1 : Fin S5x512.rank) ∈ dot_S5x512_S5x4096_S512x4096_0_0_1_1_n_n.lhsBatch from List.not_mem_nil),
    dif_pos (show (1 : Fin S5x512.rank) ∈ dot_S5x512_S5x4096_S512x4096_0_0_1_1_n_n.lhsNonContracting from List.mem_singleton.mpr rfl)]
  rfl

theorem dot_rhs1 (i : S512x4096.Idx) (q : dot_S5x512_S5x4096_S512x4096_0_0_1_1_n_n.contr.Idx) :
    (dot_S5x512_S5x4096_S512x4096_0_0_1_1_n_n.rhsIdx i q 1).val = (i 1).val := by
  unfold DotDims.rhsIdx
  rw [dif_neg (show ¬(1 : Fin S5x4096.rank) ∈ dot_S5x512_S5x4096_S512x4096_0_0_1_1_n_n.rhsBatch from List.not_mem_nil),
    dif_pos (show (1 : Fin S5x4096.rank) ∈ dot_S5x512_S5x4096_S512x4096_0_0_1_1_n_n.rhsNonContracting from List.mem_singleton.mpr rfl)]
  rfl

/-- The product contracting the five rows of both operands, into the zero array: entry `(t, m)` is the sum over the
    five rows `k` of the left operand at `(k, t)` times the right operand at `(k, m)`. -/
theorem dot_apply (A : FVec Ideal S5x512 .f32) (B : FVec Ideal S5x4096 .f32) (t : Fin 512) (m : Fin 4096) :
    matmul dot_S5x512_S5x4096_S512x4096_0_0_1_1_n_n (some .fp32) A B (constant S512x4096 .f32 0x00000000#32) (ix2 t m)
      = ∑ k : Fin 5, A (ix2 k t) * B (ix2 k m) := by
  simp only [matmul]
  rw [Ideal.matmul_constant_zero_apply,
    ← Equiv.sum_comp (contrEquiv1 dot_S5x512_S5x4096_S512x4096_0_0_1_1_n_n 5 rfl rfl).symm]
  refine Finset.sum_congr rfl fun k _ => ?_
  have hk := contrEquiv1_symm_val dot_S5x512_S5x4096_S512x4096_0_0_1_1_n_n 5 rfl rfl k
  have el : dot_S5x512_S5x4096_S512x4096_0_0_1_1_n_n.lhsIdx (ix2 t m)
      ((contrEquiv1 dot_S5x512_S5x4096_S512x4096_0_0_1_1_n_n 5 rfl rfl).symm k) = ix2 k t :=
    funext fun a => Fin.ext (by
      match a with
      | ⟨0, _⟩ => exact (dot_S5x512_S5x4096_S512x4096_0_0_1_1_n_n.lhsIdx_val_of_single rfl _ _).trans hk
      | ⟨1, _⟩ => exact dot_lhs1 _ _)
  have er : dot_S5x512_S5x4096_S512x4096_0_0_1_1_n_n.rhsIdx (ix2 t m)
      ((contrEquiv1 dot_S5x512_S5x4096_S512x4096_0_0_1_1_n_n 5 rfl rfl).symm k) = ix2 k m :=
    funext fun a => Fin.ext (by
      match a with
      | ⟨0, _⟩ => exact (dot_S5x512_S5x4096_S512x4096_0_0_1_1_n_n.rhsIdx_val_of_single rfl _ _).trans hk
      | ⟨1, _⟩ => exact dot_rhs1 _ _)
  rw [el, er]

end Dot

/-- For finite coordinates, the five products of the stacked rows add up to the squared distance before clamping. -/
theorem six_reals (a0 a1 a2 b0 b1 b2 : ℝ) :
    ((-2 : ℝ) : EReal) * a0 * b0 + ((-2 : ℝ) : EReal) * a1 * b1 + ((-2 : ℝ) : EReal) * a2 * b2
        + ((a0 : EReal) * a0 + (a1 : EReal) * a1 + (a2 : EReal) * a2) * 1
        + 1 * ((b0 : EReal) * b0 + (b1 : EReal) * b1 + (b2 : EReal) * b2)
      = (((a0 : EReal) * a0 + (a1 : EReal) * a1 + (a2 : EReal) * a2)
          + ((b0 : EReal) * b0 + (b1 : EReal) * b1 + (b2 : EReal) * b2))
        - 2 * ((a0 : EReal) * b0 + (a1 : EReal) * b1 + (a2 : EReal) * b2) := by
  have h2 : (2 : EReal) = ((2 : ℝ) : EReal) := rfl
  rw [h2, mul_one, one_mul]
  simp only [← EReal.coe_mul, ← EReal.coe_add, ← EReal.coe_sub]
  exact congrArg _ (by ring)

/-- Entry `(t, m)` of the tile is the clamped squared distance between point `t` of the first block and point `m` of the
    second, when all coordinates are finite. -/
theorem pay2_apply (h0 : ∀ i, ∃ r : ℝ, x0 i = (r : EReal)) (h1 : ∀ i, ∃ r : ℝ, x1 i = (r : EReal))
    (t : Fin 512) (m : Fin 4096) :
    k0_pay2 (F := Ideal) x0 x1 (ix2 t m)
      = Cert.Chamfer.d2pt (fun d => x0 (ix3 0 d t)) (fun d => x1 (ix3 0 d m)) := by
  -- the word-level form of the column sums: the accumulator is shown neutral by computing the word
  have cs : ∀ {N : ℕ} (v : FVec Ideal ⟨2, ![3, N]⟩ .f32) (h : (⟨2, ![3, N]⟩ : Shape).Reduces [0] ⟨1, ![N]⟩) (c : Fin N),
      multiReduction .add [0] ⟨1, ![N]⟩ v 0x00000000#32 h (.inl rfl) rfl (ix1 c) = ∑ d : Fin 3, v (ix2 d c) :=
    fun v h c => colSum_apply v h (.inl rfl) rfl c
  unfold k0_pay2
  -- the clamp at zero, entry by entry
  refine (maximumf_apply _ _ _).trans ?_
  unfold Cert.Chamfer.d2pt
  refine congrArg₂ max ?_ Ideal.ofBits_zero_f32
  -- the product of the stacked arrays: five terms, one per stacked row
  refine (dot_apply _ _ t m).trans ?_
  rw [Fin.sum_univ_five]
  rw [concat_top _ _ _ _ (0 : Fin 3) (0 : Fin 5) rfl t, concat_top _ _ _ _ (1 : Fin 3) (1 : Fin 5) rfl t,
    concat_top _ _ _ _ (2 : Fin 3) (2 : Fin 5) rfl t, concat_mid _ _ _ _ t, concat_bot _ _ _ _ t,
    concat_top _ _ _ _ (0 : Fin 3) (0 : Fin 5) rfl m, concat_top _ _ _ _ (1 : Fin 3) (1 : Fin 5) rfl m,
    concat_top _ _ _ _ (2 : Fin 3) (2 : Fin 5) rfl m, concat_mid _ _ _ _ m, concat_bot _ _ _ _ m]
  -- each stacked row in terms of the coordinates
  simp only [mulf_apply, broadcast_apply, Ideal.ofBits_def, ofBits_neg_two, Cert.LibMinReduce.ofBits_one,
    shapeCast_1ab_ab_apply, shapeCast_a_1a_apply, Fin.sum_univ_three]
  rw [cs _ reduces_S3x512_S512 t, cs _ reduces_S3x4096_S4096 m]
  simp only [mulf_apply, shapeCast_1ab_ab_apply, Fin.sum_univ_three]
  -- finite coordinates: the identity holds among reals
  obtain ⟨a0, e0⟩ := h0 (ix3 0 0 t)
  obtain ⟨a1, e1⟩ := h0 (ix3 0 1 t)
  obtain ⟨a2, e2⟩ := h0 (ix3 0 2 t)
  obtain ⟨b0, f0⟩ := h1 (ix3 0 0 m)
  obtain ⟨b1, f1⟩ := h1 (ix3 0 1 m)
  obtain ⟨b2, f2⟩ := h1 (ix3 0 2 m)
  rw [e0, e1, e2, f0, f1, f2]
  exact six_reals a0 a1 a2 b0 b1 b2

end Cert.Chamfer.Pay

end
-- ==== Proof.HostSide.lean ====
/-
  The host side of the two-sided nearest-neighbour squared distance: what the region finds in its two input arrays
  (the clouds with their last two axes exchanged), what the operations after the region make of the two arrays of
  minima (the specification's mean of means), and that finite inputs are real numbers.
-/
import proofs.«130840_j14293651161196_2_alg».proof.Proof.Spec
import proofs.«130840_j14293651161196_2_alg».proof.Proof.Gen.KernelIdeal.Frame
import proofs.«130840_j14293651161196_2_alg».proof.Defs
import proofs.«130840_j14293651161196_2_alg».proof.Proof.Gen.Pre_finite_inputs
import Idealize.ShloMosaic.Lib.StableHlo.Run
import Idealize.ShloMosaic.Lib.ValueIdx
import Idealize.ShloMosaic.Lib.ValueLayout
import Idealize.ShloMosaic.Lib.Pipeline.Value
import Idealize.ShloMosaic.Lib.ReduceAll

noncomputable section

namespace Cert.Chamfer.Host

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-! ## The region's input arrays -/

/-- The first array the region reads is the first cloud with its last two axes exchanged. -/
theorem V_v0_eq : (Gen.V m c main_v0 : S8x3x4096.Idx → EReal)
    = transpose S8x3x4096 [0, 2, 1] (m ((c : Thread nD τ).loc main_arg0) : S8x4096x3.Idx → EReal)
        Facts₀.transposes_S8x4096x3_S8x3x4096_0_2_1 := by
  show StableHlo.after hostOps0 (fun b => m (c, b)) (Proc.devRef .tc main_v0) = _
  after_results

/-- The second array the region reads is the second cloud with its last two axes exchanged. -/
theorem V_v1_eq : (Gen.V m c main_v1 : S8x3x4096.Idx → EReal)
    = transpose S8x3x4096 [0, 2, 1] (m ((c : Thread nD τ).loc main_arg1) : S8x4096x3.Idx → EReal)
        Facts₀.transposes_S8x4096x3_S8x3x4096_0_2_1 := by
  show StableHlo.after hostOps0 (fun b => m (c, b)) (Proc.devRef .tc main_v1) = _
  after_results

/-- Coordinate `d` of point `n` of cloud `b` sits at `(b, d, n)` of the first array the region reads. -/
theorem V_v0_apply (b : Fin 8) (d : Fin 3) (n : Fin 4096) :
    (Gen.V m c main_v0 : S8x3x4096.Idx → EReal) (ix3 b d n)
      = (m ((c : Thread nD τ).loc main_arg0) : S8x4096x3.Idx → EReal) (ix3 b n d) := by
  rw [V_v0_eq]
  exact transpose_ix3_021_apply _ _ b d n

/-- Coordinate `d` of point `n` of cloud `b` sits at `(b, d, n)` of the second array the region reads. -/
theorem V_v1_apply (b : Fin 8) (d : Fin 3) (n : Fin 4096) :
    (Gen.V m c main_v1 : S8x3x4096.Idx → EReal) (ix3 b d n)
      = (m ((c : Thread nD τ).loc main_arg1) : S8x4096x3.Idx → EReal) (ix3 b n d) := by
  rw [V_v1_eq]
  exact transpose_ix3_021_apply _ _ b d n

/-! ## The operations after the region -/

/-- An `[8, 1, 4096]` array cast to `[8, 4096]` reads, at `(b, n)`, the operand at `(b, 0, n)`: the two indices have
    the same row-major position. -/
theorem reshape_apply (a : S8x1x4096.Idx → EReal) (b : Fin 8) (n : Fin 4096) :
    shapeCast S8x4096 a Facts₀.shapeCasts_S8x1x4096_S8x4096 (ix2 b n) = a (ix3 b (0 : Fin 1) n) :=
  shapeCast_apply a _ _ _ (by
    rw [Shape.rowMajor_val_three, Shape.rowMajor_val_two]
    show (b.val * 1 + 0) * 4096 + n.val = b.val * 4096 + n.val
    omega)

/-- What the operations after the region leave in the result buffer is the specification's mean of means of the two
    arrays the region wrote (each cast from `[8, 1, 4096]` to `[8, 4096]`), whatever the region wrote there. -/
theorem tail_eq (dats : (p : Fin 1) → (c : Dev nD) → Pipeline.Dat τ (Elt Ideal) Unit ℕ (UR sig nD τ) ℕ (cfgs p) c) :
    Pipeline.afterTail₀ cfgs dats 0 (Gen.V0 m) [hostOps1] c main_v13
      = Cert.Chamfer.tail Facts₀.reducesTo_S8x4096_S8_d1 Facts₀.h_S_ Facts₀.bcast_S_S8 Facts₀.reducesTo_S8_S_d0
          (shapeCast S8x4096 ((dats 0 c).arrAt 2 cfg0.N : S8x1x4096.Idx → EReal) Facts₀.shapeCasts_S8x1x4096_S8x4096)
          (shapeCast S8x4096 ((dats 0 c).arrAt 3 cfg0.N : S8x1x4096.Idx → EReal) Facts₀.shapeCasts_S8x1x4096_S8x4096) := by
  have e2 : Pipeline.withArrays (cfgs 0).spec c (V0 m c) (fun w => (dats 0 c).arrAt w (cfgs 0).N) (Proc.devRef .tc main_v2_0)
      = (dats 0 c).arrAt 2 (cfgs 0).N :=
    Pipeline.withArrays_arr spec0 launch0.win.arr_inj c _ _ 2
  have e3 : Pipeline.withArrays (cfgs 0).spec c (V0 m c) (fun w => (dats 0 c).arrAt w (cfgs 0).N) (Proc.devRef .tc main_v2_1)
      = (dats 0 c).arrAt 3 (cfgs 0).N :=
    Pipeline.withArrays_arr spec0 launch0.win.arr_inj c _ _ 3
  unfold Pipeline.afterTail₀
  show StableHlo.after hostOps1 _ (Proc.devRef .tc main_v13) = _
  after_results
  rw [e2, e3]
  rfl

/-! ## Finite inputs are real numbers -/

/-- A scalar has one index. -/
instance subsingleton_scalar_idx : Subsingleton (⟨0, ![]⟩ : Shape).Idx := ⟨fun a b => funext fun d => d.elim0⟩

/-- An extended real whose absolute value `max x (-x)` is strictly below +infinity (the f32 pattern 0x7F800000) is a
    real number: the bottom element has absolute value top, and so has the top element. -/
theorem real_of_abs_lt_inf (x : EReal)
    (h : FloatOps.cmpf (F := Ideal) (φ := .f32) .olt (FloatOps.absf (F := Ideal) (φ := .f32) x) (Ideal.ofBits .f32 0x7F800000#32) = 1#1) :
    ∃ r : ℝ, x = (r : EReal) := by
  have hinf : Ideal.ofBits .f32 0x7F800000#32 = (⊤ : EReal) := by simp [Ideal.ofBits, Ideal.ieee]
  rw [hinf] at h
  have hlt : max x (-x) < (⊤ : EReal) := by
    by_contra hn
    have h' : Ideal.cmp .olt (max x (-x)) ⊤ = 1#1 := h
    simp only [Ideal.cmp] at h'
    rw [decide_eq_false hn] at h'
    exact absurd h' (by decide)
  obtain ⟨h1, h2⟩ := max_lt_iff.1 hlt
  induction x using EReal.rec with
  | bot => rw [EReal.neg_bot] at h2; exact absurd h2 (lt_irrefl _)
  | top => exact absurd h1 (lt_irrefl _)
  | coe r => exact ⟨r, rfl⟩

/-- Under the precondition (every entry of both clouds has absolute value below +infinity) every entry of both clouds
    is a real number. -/
theorem real_of_pre (hpre : Cert.Pre_KernelIdeal m) :
    (∀ i, ∃ r : ℝ, (m ((c : Thread nD τ).loc main_arg0) : S8x4096x3.Idx → EReal) i = (r : EReal))
    ∧ (∀ i, ∃ r : ℝ, (m ((c : Thread nD τ).loc main_arg1) : S8x4096x3.Idx → EReal) i = (r : EReal)) := by
  have h := congrFun (hpre c) ValueIdx.ix0
  dsimp only [Cert.Pre_finite_inputs.fn] at h
  obtain ⟨h0, h1⟩ := IntOp.andi_eq_one.1 h
  constructor
  · intro i
    exact real_of_abs_lt_inf _ (Host.reduce_andi_all _ _ _ _ _ h0 i)
  · intro i
    exact real_of_abs_lt_inf _ (Host.reduce_andi_all _ _ _ _ _ h1 i)

end Cert.Chamfer.Host

end
-- ==== Proof.Blocks.lean ====
/-
  The blocks of the two-sided nearest-neighbour squared distance's grid: at point t = 8 b + i the first input block is
  coordinates of points 512 i … 512 i + 511 of cloud b of the first batch, the second input block all of cloud b of the
  second batch; the first output block is entries 512 i … 512 i + 511 of row b, the second all of row b.
-/
import proofs.«130840_j14293651161196_2_alg».proof.Proof.HostSide
import proofs.«130840_j14293651161196_2_alg».proof.Proof.Gen.KernelIdeal.Frame
import Idealize.ShloMosaic.Lib.Pipeline.Value
import Idealize.ShloMosaic.Lib.ValueIdx

noncomputable section

namespace Cert.Chamfer.Blocks

open Idealize.ShloMosaic Idealize.ShloMosaic.TcCoe Idealize.ShloMosaic.ValueIdx
open Cert.KernelIdeal Cert.KernelIdeal.Gen Cert.Chamfer.Host

variable (m : (ℓ : Loc nD τ sig) → Buf (Elt Ideal) ℓ) (c : Dev nD)

/-! ## Where each window's block sits at a grid point -/

/-- The first window's block index at point `t`: batch `t / 8`, all three coordinates, row block `t % 8`. -/
theorem idx0 : ∀ t : Fin grid0.N, win0_0.index t 0 = t.val / 8 ∧ win0_0.index t 1 = 0 ∧ win0_0.index t 2 = t.val % 8 := by
  decide +kernel
/-- The second window's block index at point `t`: batch `t / 8`, the whole cloud. -/
theorem idx1 : ∀ t : Fin grid0.N, win0_1.index t 0 = t.val / 8 ∧ win0_1.index t 1 = 0 ∧ win0_1.index t 2 = 0 := by
  decide +kernel
/-- The third window's block index at point `t`: row `t / 8`, entry block `t % 8`. -/
theorem idx2 : ∀ t : Fin grid0.N, win0_2.index t 0 = t.val / 8 ∧ win0_2.index t 1 = 0 ∧ win0_2.index t 2 = t.val % 8 := by
  decide +kernel
/-- The fourth window's block index at point `t`: row `t / 8`, the whole row. -/
theorem idx3 : ∀ t : Fin grid0.N, win0_3.index t 0 = t.val / 8 ∧ win0_3.index t 1 = 0 ∧ win0_3.index t 2 = 0 := by
  decide +kernel

/-! ## The input blocks as entries of the clouds -/

/-- At point `t = 8 b + i` the first input block holds, at `(0, d, p)`, coordinate `d` of point `512 i + p` of cloud `b`. -/
theorem iblk0_apply (t : Fin cfg0.N) (b i : Fin 8) (ht : t.val = 8 * b.val + i.val) (d : Fin 3) (p : Fin 512)
    (n : Fin 4096) (hn : n.val = 512 * i.val + p.val) :
    (Gen.iblk m c 0 t : S1x3x512.Idx → EReal) (ix3 0 d p)
      = (m ((c : Thread nD τ).loc main_arg0) : S8x4096x3.Idx → EReal) (ix3 b n d) := by
  have hi := idx0 t
  have hb := b.isLt
  have hii := i.isLt
  rw [← V_v0_apply m c b d n]
  unfold Gen.iblk
  rw [View.read_apply]
  show Gen.V m c main_v0 _ = Gen.V m c main_v0 _
  congr 1
  funext a
  apply Fin.ext
  match a with
  | ⟨0, _⟩ => show win0_0.index t 0 * 1 + 1 * 0 = b.val; rw [hi.1]; omega
  | ⟨1, _⟩ => show win0_0.index t 1 * 3 + 1 * d.val = d.val; rw [hi.2.1]; omega
  | ⟨2, _⟩ => show win0_0.index t 2 * 512 + 1 * p.val = n.val; rw [hi.2.2, hn]; omega

/-- At point `t = 8 b + i` the second input block holds, at `(0, d, q)`, coordinate `d` of point `q` of cloud `b`. -/
theorem iblk1_apply (t : Fin cfg0.N) (b i : Fin 8) (ht : t.val = 8 * b.val + i.val) (d : Fin 3) (q : Fin 4096) :
    (Gen.iblk m c 1 t : S1x3x4096.Idx → EReal) (ix3 0 d q)
      = (m ((c : Thread nD τ).loc main_arg1) : S8x4096x3.Idx → EReal) (ix3 b q d) := by
  have hi := idx1 t
  have hb := b.isLt
  have hii := i.isLt
  rw [← V_v1_apply m c b d q]
  unfold Gen.iblk
  rw [View.read_apply]
  show Gen.V m c main_v1 _ = Gen.V m c main_v1 _
  congr 1
  funext a
  apply Fin.ext
  match a with
  | ⟨0, _⟩ => show win0_1.index t 0 * 1 + 1 * 0 = b.val; rw [hi.1]; omega
  | ⟨1, _⟩ => show win0_1.index t 1 * 3 + 1 * d.val = d.val; rw [hi.2.1]; omega
  | ⟨2, _⟩ => show win0_1.index t 2 * 4096 + 1 * q.val = q.val; rw [hi.2.2]; omega

/-! ## The output blocks' places in their arrays -/

/-- At point `t = 8 b + i` entry `(0, 0, p)` of the first output block is entry `(b, 0, 512 i + p)` of its array. -/
theorem emb2 (t : Fin cfg0.N) (b i : Fin 8) (ht : t.val = 8 * b.val + i.val) (p : Fin 512) (n : Fin 4096)
    (hn : n.val = 512 * i.val + p.val) :
    ((cfg0.win 2).blk t).view.emb (ix3 0 0 p : S1x1x512.Idx) = (ix3 b 0 n : S8x1x4096.Idx) := by
  have hi := idx2 t
  have hb := b.isLt
  have hii := i.isLt
  funext a
  apply Fin.ext
  match a with
  | ⟨0, _⟩ => show win0_2.index t 0 * 1 + 1 * 0 = b.val; rw [hi.1]; omega
  | ⟨1, _⟩ => show win0_2.index t 1 * 1 + 1 * 0 = 0; rw [hi.2.1]
  | ⟨2, _⟩ => show win0_2.index t 2 * 512 + 1 * p.val = n.val; rw [hi.2.2, hn]; omega

/-- At point `t = 8 b + i` entry `(0, 0, q)` of the second output block is entry `(b, 0, q)` of its array. -/
theorem emb3 (t : Fin cfg0.N) (b i : Fin 8) (ht : t.val = 8 * b.val + i.val) (q : Fin 4096) :
    ((cfg0.win 3).blk t).view.emb (ix3 0 0 q : S1x1x4096.Idx) = (ix3 b 0 q : S8x1x4096.Idx) := by
  have hi := idx3 t
  have hb := b.isLt
  have hii := i.isLt
  funext a
  apply Fin.ext
  match a with
  | ⟨0, _⟩ => show win0_3.index t 0 * 1 + 1 * 0 = b.val; rw [hi.1]; omega
  | ⟨1, _⟩ => show win0_3.index t 1 * 1 + 1 * 0 = 0; rw [hi.2.1]
  | ⟨2, _⟩ => show win0_3.index t 2 * 4096 + 1 * q.val = q.val; rw [hi.2.2]; omega

/-- The first output block read off any array `G`: at `(0, 0, p)` it is `G (b, 0, 512 i + p)`. -/
theorem read2 (G : S8x1x4096.Idx → EReal) (t : Fin cfg0.N) (b i : Fin 8) (ht : t.val = 8 * b.val + i.val) (p : Fin 512)
    (n : Fin 4096) (hn : n.val = 512 * i.val + p.val) :
    (((cfg0.win 2).blk t).view.read (Elt Ideal) G : S1x1x512.Idx → EReal) (ix3 0 0 p) = G (ix3 b 0 n) := by
  rw [View.read_apply]
  show G _ = G _
  exact congrArg G (emb2 t b i ht p n hn)

/-- The second output block read off any array `G`: at `(0, 0, q)` it is `G (b, 0, q)`. -/
theorem read3 (G : S8x1x4096.Idx → EReal) (t : Fin cfg0.N) (b i : Fin 8) (ht : t.val = 8 * b.val + i.val) (q : Fin 4096) :
    (((cfg0.win 3).blk t).view.read (Elt Ideal) G : S1x1x4096.Idx → EReal) (ix3 0 0 q) = G (ix3 b 0 q) := by
  rw [View.read_apply]
  show G _ = G _
  exact congrArg G (emb3 t b i ht q)

/-! ## Real entries -/

/-- Every entry of the first array the region reads is an entry of the first cloud. -/
theorem V_v0_real (hX : ∀ j, ∃ r : ℝ, (m ((c : Thread nD τ).loc main_arg0) : S8x4096x3.Idx → EReal) j = (r : EReal))
    (k : S8x3x4096.Idx) : ∃ r : ℝ, (Gen.V m c main_v0 : S8x3x4096.Idx → EReal) k = (r : EReal) := by
  obtain ⟨r, hr⟩ := hX (ix3 (k 0) (k 2) (k 1))
  exact ⟨r, ((congrArg (Gen.V m c main_v0 : S8x3x4096.Idx → EReal) (eq_ix3 k)).trans
    (V_v0_apply m c (k 0) (k 1) (k 2))).trans hr⟩

/-- Every entry of the second array the region reads is an entry of the second cloud. -/
theorem V_v1_real (hY : ∀ j, ∃ r : ℝ, (m ((c : Thread nD τ).loc main_arg1) : S8x4096x3.Idx → EReal) j = (r : EReal))
    (k : S8x3x4096.Idx) : ∃ r : ℝ, (Gen.V m c main_v1 : S8x3x4096.Idx → EReal) k = (r : EReal) := by
  obtain ⟨r, hr⟩ := hY (ix3 (k 0) (k 2) (k 1))
  exact ⟨r, ((congrArg (Gen.V m c main_v1 : S8x3x4096.Idx → EReal) (eq_ix3 k)).trans
    (V_v1_apply m c (k 0) (k 1) (k 2))).trans hr⟩

/-- If every entry of the first cloud is a real number, so is every entry of the first input block at every point. -/
theorem iblk0_real (hX : ∀ j, ∃ r : ℝ, (m ((c : Thread nD τ).loc main_arg0) : S8x4096x3.Idx → EReal) j = (r : EReal))
    (t : Fin cfg0.N) : ∀ y, ∃ r : ℝ, (Gen.iblk m c 0 t : S1x3x512.Idx → EReal) y = (r : EReal) := by
  intro y
  unfold Gen.iblk
  rw [View.read_apply]
  show ∃ r : ℝ, (Gen.V m c main_v0 : S8x3x4096.Idx → EReal) _ = (r : EReal)
  exact V_v0_real m c hX _

/-- If every entry of the second cloud is a real number, so is every entry of the second input block at every point. -/
theorem iblk1_real (hY : ∀ j, ∃ r : ℝ, (m ((c : Thread nD τ).loc main_arg1) : S8x4096x3.Idx → EReal) j = (r : EReal))
    (t : Fin cfg0.N) : ∀ y, ∃ r : ℝ, (Gen.iblk m c 1 t : S1x3x4096.Idx → EReal) y = (r : EReal) := by
  intro y
  unfold Gen.iblk
  rw [View.read_apply]
  show ∃ r : ℝ, (Gen.V m c main_v1 : S8x3x4096.Idx → EReal) _ = (r : EReal)
  exact V_v1_real m c hY _

end Cert.Chamfer.Blocks

end
-- ==== Proof.IdealValue.lean ====
/-
  The kernel's value on the extended reals, point by point.
  At the point of batch b and row block i the body sees rows 512 i … 512 i + 511 of the first cloud of batch b and the
  whole second cloud of batch b. Its clamped tile is the clamped squared distance of every such row to every point of the
  second cloud; the first output's buffer gets the row minima; the scratch row, folded over the row blocks 0 … i, holds
  for each point of the second cloud the least clamped squared distance over the rows seen so far; after the last row
  block that is the least over the whole first cloud, and it is what the second output's buffer gets.
  Minima are carried by their universal property: a value is below a minimum exactly when it is below every element.
-/
import proofs.«130840_j14293651161196_2_alg».proof.Proof.IdealPieces
import proofs.«130840_j14293651161196_2_alg».proof.Proof.PayIdeal
import proofs.«130840_j14293651161196_2_alg».proof.Proof.Blocks
import proofs.«130840_j14293651161196_2_alg».proof.Proof.Spec

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open Cert.Chamfer Cert.Chamfer.Pay Cert.Chamfer.Blocks

variable (m : (ℓ : Loc nD τ sig) → Buf (Elt Ideal) ℓ) (c : Dev nD)

/-- The two clouds as the program is given them. -/
abbrev cloudX : S8x4096x3.Idx → EReal := m ((c : Thread nD τ).loc main_arg0)
abbrev cloudY : S8x4096x3.Idx → EReal := m ((c : Thread nD τ).loc main_arg1)

/-- Every coordinate of a cloud is a real number. -/
abbrev RealCloud (f : S8x4096x3.Idx → EReal) : Prop := ∀ j, ∃ r : ℝ, f j = (r : EReal)

/-- The clamped tile at a point: entry (p, q) is the clamped squared distance of row 512 i + p of the first cloud to
    point q of the second, in batch b. Finiteness of the clouds is used here, and only here. -/
theorem tile_apply (hX : RealCloud (cloudX m c)) (hY : RealCloud (cloudY m c)) (t : Fin cfg0.N) (b i : Fin 8) (ht : t.val = 8 * b.val + i.val)
    (p : Fin 512) (n : Fin 4096) (hn : n.val = 512 * i.val + p.val) (q : Fin 4096) :
    k0_pay2 (F := Ideal) (iblk m c 0 t) (iblk m c 1 t) (ix2 p q) = d2 (cloudX m c) (cloudY m c) b n q := by
  rw [pay2_apply _ _ (iblk0_real m c hX t) (iblk1_real m c hY t) p q]
  unfold d2
  exact congrArg₂ d2pt (funext fun d => iblk0_apply m c t b i ht d p n hn) (funext fun d => iblk1_apply m c t b i ht d q)

theorem outsAt_congr {n n' : ℕ} (h : n = n') (hn : n < cfg0.N) (hn' : n' < cfg0.N) :
    outsAt m c n hn = outsAt m c n' hn' := by subst h; rfl

/-! ## The minima at a point -/

/-- The first output's buffer after a point: entry p is the least clamped squared distance of row 512 i + p. -/
theorem rowmin_at (hX : RealCloud (cloudX m c)) (hY : RealCloud (cloudY m c)) (t : Fin cfg0.N) (b i : Fin 8) (ht : t.val = 8 * b.val + i.val)
    (p : Fin 512) (n : Fin 4096) (hn : n.val = 512 * i.val + p.val) (z : EReal) :
    z ≤ (outsAt m c t.val t.isLt).1 (ix3 0 0 p) ↔ ∀ q : Fin 4096, z ≤ d2 (cloudX m c) (cloudY m c) b n q := by
  rw [first_at m c t, le_pay3]
  exact forall_congr' fun q => by rw [tile_apply m c hX hY t b i ht p n hn q]

/-- The column minima of the point's tile: for point q of the second cloud, the least over the point's 512 rows. -/
theorem colmin_at (hX : RealCloud (cloudX m c)) (hY : RealCloud (cloudY m c)) (t : Fin cfg0.N) (b i : Fin 8) (ht : t.val = 8 * b.val + i.val) (q : Fin 4096) (z : EReal) :
    z ≤ k0_pay4 (F := Ideal) (iblk m c 0 t) (iblk m c 1 t) (ix2 0 q)
      ↔ ∀ n : Fin 4096, 512 * i.val ≤ n.val → n.val < 512 * (i.val + 1) → z ≤ d2 (cloudX m c) (cloudY m c) b n q := by
  rw [le_pay4]
  have hi : i.val < 8 := i.isLt
  constructor
  · intro h n h1 h2
    have hp : n.val - 512 * i.val < 512 := by omega
    have := h ⟨n.val - 512 * i.val, hp⟩
    rwa [tile_apply m c hX hY t b i ht ⟨n.val - 512 * i.val, hp⟩ n (by show n.val = 512 * i.val + (n.val - 512 * i.val); omega) q] at this
  · intro h p
    have hp : p.val < 512 := p.isLt
    have hlt : 512 * i.val + p.val < 4096 := by omega
    rw [tile_apply m c hX hY t b i ht p ⟨512 * i.val + p.val, hlt⟩ rfl q]
    exact h ⟨512 * i.val + p.val, hlt⟩ (by show 512 * i.val ≤ 512 * i.val + p.val; omega) (by show 512 * i.val + p.val < 512 * (i.val + 1); omega)

/-- The scratch row after row block i of batch b: for point q of the second cloud, the least clamped squared distance
    over the rows 0 … 512 (i + 1) - 1 of the first cloud. -/
theorem scr_inv (hX : RealCloud (cloudX m c)) (hY : RealCloud (cloudY m c)) (b : Fin 8) : ∀ (i : ℕ) (hi : i < 8) (hn : 8 * b.val + i < cfg0.N) (q : Fin 4096) (z : EReal),
    z ≤ (outsAt m c (8 * b.val + i) hn).2.2 (ix2 0 q)
      ↔ ∀ n : Fin 4096, n.val < 512 * (i + 1) → z ≤ d2 (cloudX m c) (cloudY m c) b n q := by
  intro i
  induction i with
  | zero =>
    intro hi hn q z
    have e := (scr_first m c ⟨8 * b.val + 0, hn⟩ (by show (8 * b.val + 0) % 8 = 0; omega)).trans (pay5_eq _ _)
    rw [show (outsAt m c (8 * b.val + 0) hn).2.2 = _ from e]
    rw [colmin_at m c hX hY ⟨8 * b.val + 0, hn⟩ b ⟨0, by omega⟩ rfl q z]
    exact forall_congr' fun n => ⟨fun h h2 => h (Nat.zero_le _) h2, fun h _ h2 => h h2⟩
  | succ k ih =>
    intro hi hn q z
    have hk : k < 8 := by omega
    have hnk : 8 * b.val + k < cfg0.N := by omega
    have e := scr_later m c ⟨8 * b.val + (k + 1), hn⟩ (by show ¬(8 * b.val + (k + 1)) % 8 = 0; omega)
    rw [show (outsAt m c (8 * b.val + (k + 1)) hn).2.2 = _ from e, pay6_apply, le_min_iff]
    rw [outsAt_congr m c (show (8 * b.val + (k + 1)) - 1 = 8 * b.val + k by omega) _ hnk]
    rw [ih hk hnk q z, colmin_at m c hX hY ⟨8 * b.val + (k + 1), hn⟩ b ⟨k + 1, hi⟩ rfl q z]
    constructor
    · rintro ⟨h1, h2⟩ n hlt
      by_cases hlo : n.val < 512 * (k + 1)
      · exact h1 n hlo
      · exact h2 n (by show 512 * (k + 1) ≤ n.val; omega) (by show n.val < 512 * (k + 1 + 1); omega)
    · intro h
      exact ⟨fun n hlo => h n (by omega), fun n _ hhi => h n hhi⟩

/-! ## What the write-backs write -/

/-- The first output array as it should end: the least clamped squared distance of each point of the first cloud. -/
abbrev G2 : S8x1x4096.Idx → EReal := fun j => min1 (cloudX m c) (cloudY m c) (ix2 (j 0) (j 2))
/-- The second output array: the least clamped squared distance of each point of the second cloud. -/
abbrev G3 : S8x1x4096.Idx → EReal := fun j => min2 (cloudX m c) (cloudY m c) (ix2 (j 0) (j 2))

/-- Every point writes back, into the first output array, its 512 rows' minima. -/
theorem flushed2 (hX : RealCloud (cloudX m c)) (hY : RealCloud (cloudY m c)) (t : Fin cfg0.N) :
    (dats m 0 c).flushed 2 t = ((cfg0.win 2).blk t).view.read (Elt Ideal) (G2 m c) := by
  have hN : t.val < 64 := lt_of_lt_of_eq t.isLt (show cfg0.N = 64 from N_0)
  have hb : t.val / 8 < 8 := by omega
  have hi : t.val % 8 < 8 := by omega
  have ht : t.val = 8 * (⟨t.val / 8, hb⟩ : Fin 8).val + (⟨t.val % 8, hi⟩ : Fin 8).val := by
    show t.val = 8 * (t.val / 8) + t.val % 8; omega
  show (cfg0.win 2).cut (grid0.coords t) ((dats m 0 c).after 2 t) = _
  rw [after_2]
  funext j
  obtain ⟨a0, a1, p, rfl⟩ : ∃ (a0 a1 : Fin 1) (p : Fin 512), j = ix3 a0 a1 p := ⟨j 0, j 1, j 2, eq_ix3 j⟩
  obtain rfl : a0 = 0 := Subsingleton.elim _ _
  obtain rfl : a1 = 0 := Subsingleton.elim _ _
  have hp : p.val < 512 := p.isLt
  have hlt : 512 * (t.val % 8) + p.val < 4096 := by omega
  have hn : (⟨512 * (t.val % 8) + p.val, hlt⟩ : Fin 4096).val = 512 * (⟨t.val % 8, hi⟩ : Fin 8).val + p.val := rfl
  rw [read2 (G2 m c) t ⟨t.val / 8, hb⟩ ⟨t.val % 8, hi⟩ ht p ⟨512 * (t.val % 8) + p.val, hlt⟩ hn]
  show (outsAt m c t.val t.isLt).1 (ix3 0 0 p)
    = ⨅ q : Fin 4096, d2 (cloudX m c) (cloudY m c) ⟨t.val / 8, hb⟩ ⟨512 * (t.val % 8) + p.val, hlt⟩ q
  exact eq_of_forall_le_iff fun z =>
    (rowmin_at m c hX hY t ⟨t.val / 8, hb⟩ ⟨t.val % 8, hi⟩ ht p ⟨512 * (t.val % 8) + p.val, hlt⟩ hn z).trans le_iInf_iff.symm

/-- The last row block of each batch writes back, into the second output array, the scratch row: the least over the
    whole first cloud. -/
theorem flushed3 (hX : RealCloud (cloudX m c)) (hY : RealCloud (cloudY m c)) (t : Fin cfg0.N) (hf : (cfg0.win 3).flush t = true) :
    (dats m 0 c).flushed 3 t = ((cfg0.win 3).blk t).view.read (Elt Ideal) (G3 m c) := by
  have h7 : t.val % 8 = 7 := (flush0_3 t).mp hf
  have hN : t.val < 64 := lt_of_lt_of_eq t.isLt (show cfg0.N = 64 from N_0)
  have hb : t.val / 8 < 8 := by omega
  have ht : t.val = 8 * (⟨t.val / 8, hb⟩ : Fin 8).val + (⟨7, by omega⟩ : Fin 8).val := by
    show t.val = 8 * (t.val / 8) + 7; omega
  show (cfg0.win 3).cut (grid0.coords t) ((dats m 0 c).after 3 t) = _
  rw [after_3]
  funext j
  obtain ⟨a0, a1, q, rfl⟩ : ∃ (a0 a1 : Fin 1) (q : Fin 4096), j = ix3 a0 a1 q := ⟨j 0, j 1, j 2, eq_ix3 j⟩
  obtain rfl : a0 = 0 := Subsingleton.elim _ _
  obtain rfl : a1 = 0 := Subsingleton.elim _ _
  rw [read3 (G3 m c) t ⟨t.val / 8, hb⟩ ⟨7, by omega⟩ ht q]
  show (outsAt m c t.val t.isLt).2.1 (ix3 0 0 q)
    = ⨅ n : Fin 4096, d2 (cloudX m c) (cloudY m c) ⟨t.val / 8, hb⟩ n q
  rw [second_last m c t h7, pay1_apply]
  have hn' : 8 * (⟨t.val / 8, hb⟩ : Fin 8).val + 7 < cfg0.N := by
    show 8 * (t.val / 8) + 7 < cfg0.N; have h64 : cfg0.N = 64 := N_0; omega
  rw [outsAt_congr m c (show t.val = 8 * (⟨t.val / 8, hb⟩ : Fin 8).val + 7 from ht) t.isLt hn']
  refine eq_of_forall_le_iff fun z => (scr_inv m c hX hY ⟨t.val / 8, hb⟩ 7 (by omega) hn' q z).trans ?_
  constructor
  · intro h
    exact le_iInf fun n => h n (by have := n.isLt; omega)
  · intro h n _
    exact le_iInf_iff.mp h n

end Cert.KernelIdeal.Hand

end
-- ==== Proof.Cover.lean ====
/-
  The kernel's pipelined call walks a grid of 64 points, point t = 8 b + i for cloud b and step i. Its first output
  array, f32[8, 1, 4096], is written back at every point in blocks [1, 1, 512], point t writing block (b, 0, i); its
  second, of the same shape, is written back at the last step of each cloud in blocks [1, 1, 4096], point 8 b + 7
  writing block (b, 0, 0). Each array is therefore covered by the blocks that are written back: element (b, 0, j) of
  the first lies in the block of point 8 b + j / 512, element (b, 0, j) of the second in the block of point 8 b + 7.
-/
import proofs.«130840_j14293651161196_2_alg».proof.Proof.Gen.KernelIdeal.Frame
import Idealize.ShloMosaic.Lib.Pipeline.Value

noncomputable section

namespace Cert.Chamfer.Cover

open Idealize.ShloMosaic Idealize.ShloMosaic.TcCoe Idealize.SL.Sem
open Cert.KernelIdeal Cert.KernelIdeal.Gen

/-- The block of the first output that point `t` writes: (t / 8, 0, t % 8), decided over the grid. -/
theorem idx2 : ∀ t : Fin cfg0.N, win0_2.index t (0 : Fin 3) = t.val / 8 ∧ win0_2.index t (1 : Fin 3) = 0
    ∧ win0_2.index t (2 : Fin 3) = t.val % 8 :=
  (by decide +kernel : ∀ t : Fin grid0.N, win0_2.index t (0 : Fin 3) = t.val / 8 ∧ win0_2.index t (1 : Fin 3) = 0
    ∧ win0_2.index t (2 : Fin 3) = t.val % 8)

/-- The block of the second output that point `t` writes: (t / 8, 0, 0), decided over the grid. -/
theorem idx3 : ∀ t : Fin cfg0.N, win0_3.index t (0 : Fin 3) = t.val / 8 ∧ win0_3.index t (1 : Fin 3) = 0
    ∧ win0_3.index t (2 : Fin 3) = 0 :=
  (by decide +kernel : ∀ t : Fin grid0.N, win0_3.index t (0 : Fin 3) = t.val / 8 ∧ win0_3.index t (1 : Fin 3) = 0
    ∧ win0_3.index t (2 : Fin 3) = 0)

/-- An index of the first output is in point `t`'s block iff each coordinate is in the block's range on its axis. -/
theorem mem_blk2 (t : Fin cfg0.N) (i : S8x1x4096.Idx) :
    i ∈ ((cfg0.win 2).blk t).view.set ↔ ∀ a : Fin 3, win0_2.index t a * S1x1x512.size a ≤ (i a).val
      ∧ (i a).val < win0_2.index t a * S1x1x512.size a + S1x1x512.size a := by
  show i ∈ ((View.whole main_v2_0).slice (win0_2.rect t)).set ↔ _
  rw [View.set_slice_whole, Rect.mem_set_unit]
  exact Iff.rfl

/-- An index of the second output is in point `t`'s block iff each coordinate is in the block's range on its axis. -/
theorem mem_blk3 (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v2_1).slice (win0_3.rect t)).set ↔ _
  rw [View.set_slice_whole, Rect.mem_set_unit]
  exact Iff.rfl

/-- Every element of the first output is in the block of a point that writes back: (b, 0, j) in that of 8 b + j / 512. -/
theorem cover2 (c : Dev nD) : ∀ i : ((cfg0.win 2).arr.view.loc (c.tc : Thread nD τ)).2.ty.Idx,
    ∃ t : Fin cfg0.N, (cfg0.win 2).flush t = true ∧ i ∈ ((cfg0.win 2).blk t).view.set := by
  intro i
  have h0 : (i 0).val < 8 := (i 0).isLt
  have h1 : (i 1).val < 1 := (i 1).isLt
  have h2 : (i 2).val < 4096 := (i 2).isLt
  have hN : cfg0.N = 64 := N_0
  have hlt : 8 * (i 0).val + (i 2).val / 512 < cfg0.N := by rw [hN]; omega
  refine ⟨⟨8 * (i 0).val + (i 2).val / 512, hlt⟩, flush0_2 _, ?_⟩
  rw [mem_blk2]
  obtain ⟨e0, e1, e2⟩ := idx2 ⟨8 * (i 0).val + (i 2).val / 512, hlt⟩
  have tv : (⟨8 * (i 0).val + (i 2).val / 512, hlt⟩ : Fin cfg0.N).val = 8 * (i 0).val + (i 2).val / 512 := rfl
  rw [tv] at e0 e2
  intro a
  match a with
  | ⟨0, _⟩ =>
    show win0_2.index _ (0 : Fin 3) * 1 ≤ (i 0).val ∧ (i 0).val < win0_2.index _ (0 : Fin 3) * 1 + 1
    rw [e0]; omega
  | ⟨1, _⟩ =>
    show win0_2.index _ (1 : Fin 3) * 1 ≤ (i 1).val ∧ (i 1).val < win0_2.index _ (1 : Fin 3) * 1 + 1
    rw [e1]; omega
  | ⟨2, _⟩ =>
    show win0_2.index _ (2 : Fin 3) * 512 ≤ (i 2).val ∧ (i 2).val < win0_2.index _ (2 : Fin 3) * 512 + 512
    rw [e2]; omega

/-- Every element of the second output is in the block of a point that writes back: (b, 0, j) in that of 8 b + 7. -/
theorem cover3 (c : Dev nD) : ∀ i : ((cfg0.win 3).arr.view.loc (c.tc : Thread nD τ)).2.ty.Idx,
    ∃ t : Fin cfg0.N, (cfg0.win 3).flush t = true ∧ i ∈ ((cfg0.win 3).blk t).view.set := by
  intro i
  have h0 : (i 0).val < 8 := (i 0).isLt
  have h1 : (i 1).val < 1 := (i 1).isLt
  have h2 : (i 2).val < 4096 := (i 2).isLt
  have hN : cfg0.N = 64 := N_0
  have hlt : 8 * (i 0).val + 7 < cfg0.N := by rw [hN]; omega
  have tv : (⟨8 * (i 0).val + 7, hlt⟩ : Fin cfg0.N).val = 8 * (i 0).val + 7 := rfl
  refine ⟨⟨8 * (i 0).val + 7, hlt⟩, (flush0_3 _).mpr (by rw [tv]; omega), ?_⟩
  rw [mem_blk3]
  obtain ⟨e0, e1, e2⟩ := idx3 ⟨8 * (i 0).val + 7, hlt⟩
  rw [tv] at e0
  intro a
  match a with
  | ⟨0, _⟩ =>
    show win0_3.index _ (0 : Fin 3) * 1 ≤ (i 0).val ∧ (i 0).val < win0_3.index _ (0 : Fin 3) * 1 + 1
    rw [e0]; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 4096 ≤ (i 2).val ∧ (i 2).val < win0_3.index _ (2 : Fin 3) * 4096 + 4096
    rw [e2]; omega

end Cert.Chamfer.Cover

end
-- ==== Proof.IdealFinal.lean ====
/-
  What the kernel's two output arrays hold after the run: for every batch and point, the least clamped squared
  distance to the other cloud. Every index of an output array lies in the block some point writes back, and each
  written block is the corresponding block of these minima.
-/
import proofs.«130840_j14293651161196_2_alg».proof.Proof.IdealValue
import proofs.«130840_j14293651161196_2_alg».proof.Proof.Cover

noncomputable section

namespace Cert.KernelIdeal.Hand

open Idealize.ShloMosaic Idealize.ShloMosaic.TcCoe Idealize.ShloMosaic.ValueIdx Idealize.SL.Sem
open Cert.KernelIdeal Cert.KernelIdeal.Gen Cert.Chamfer

variable (m : (ℓ : Loc nD τ sig) → Buf (Elt Ideal) ℓ) (c : Dev nD)

theorem final2 (hX : ∀ j, ∃ r : ℝ, (m ((c : Thread nD τ).loc main_arg0) : S8x4096x3.Idx → EReal) j = (r : EReal))
    (hY : ∀ j, ∃ r : ℝ, (m ((c : Thread nD τ).loc main_arg1) : S8x4096x3.Idx → EReal) j = (r : EReal)) :
    ((dats m 0 c).arrAt 2 cfg0.N : S8x1x4096.Idx → EReal)
      = fun j => min1 (m ((c : Thread nD τ).loc main_arg0)) (m ((c : Thread nD τ).loc main_arg1)) (ix2 (j 0) (j 2)) :=
  (dats m 0 c).arrAt_eq_of_cover 2 (G2 m c) (fun t _ => flushed2 m c hX hY t) (Cert.Chamfer.Cover.cover2 c)

theorem final3 (hX : ∀ j, ∃ r : ℝ, (m ((c : Thread nD τ).loc main_arg0) : S8x4096x3.Idx → EReal) j = (r : EReal))
    (hY : ∀ j, ∃ r : ℝ, (m ((c : Thread nD τ).loc main_arg1) : S8x4096x3.Idx → EReal) j = (r : EReal)) :
    ((dats m 0 c).arrAt 3 cfg0.N : S8x1x4096.Idx → EReal)
      = fun j => min2 (m ((c : Thread nD τ).loc main_arg0)) (m ((c : Thread nD τ).loc main_arg1)) (ix2 (j 0) (j 2)) :=
  (dats m 0 c).arrAt_eq_of_cover 3 (G3 m c) (fun t hf => flushed3 m c hX hY t hf) (Cert.Chamfer.Cover.cover3 c)

end Cert.KernelIdeal.Hand

end
-- ==== Proof.RefSide.lean ====
/-
  The reference's side of the two-sided nearest-neighbour squared distance: the reference program computes, for every
  pair of points, the clamped squared distance |x|^2 + |y|^2 - 2 <x, y> (not below 0), takes its least value along
  each of the two point axes, and averages. Read stage by stage, its result is the specification's tail applied to
  the specification's two arrays of minima.
-/
import proofs.«130840_j14293651161196_2_alg».proof.Proof.Spec
import proofs.«130840_j14293651161196_2_alg».proof.Proof.LibMinReduce
import proofs.«130840_j14293651161196_2_alg».proof.Proof.Gen.ReferenceIdeal.Read
import proofs.«130840_j14293651161196_2_alg».proof.Proof.Gen.Pre_finite_inputs
import proofs.«130840_j14293651161196_2_alg».proof.Defs

noncomputable section

namespace Cert.Chamfer.Ref

open Idealize.ShloMosaic Idealize.ShloMosaic.ValueIdx Idealize.SL.Sem Cert.ReferenceIdeal

/-- The f32 pattern of 2.0 is two. -/
theorem ofBits_two : Ideal.ofBits .f32 0x40000000#32 = (2 : EReal) := by
  simp [Ideal.ofBits, Ideal.ieee, -EReal.coe_mul]; norm_num; rfl

/-- Point `n` of cloud `b`, coordinate `k`: the index the row sum of squares of the first array reads. -/
theorem idx_sq1 (b : Fin 8) (n m : Fin 4096) (k : Fin 3) :
    Read.idx_main_v1 (Read.idx_main_v5 (Read.idx_main_v7 (ix3 b n m))) k = ix3 b n k := by
  funext a
  match a with
  | ⟨0, _⟩ => rfl
  | ⟨1, _⟩ => rfl
  | ⟨2, _⟩ => rfl

/-- Point `m` of cloud `b`, coordinate `k`: the index the row sum of squares of the second array reads. -/
theorem idx_sq2 (b : Fin 8) (n m : Fin 4096) (k : Fin 3) :
    Read.idx_main_v3 (Read.idx_main_v6 (Read.idx_main_v8 (ix3 b n m))) k = ix3 b m k := by
  funext a
  match a with
  | ⟨0, _⟩ => rfl
  | ⟨1, _⟩ => rfl
  | ⟨2, _⟩ => rfl

/-- The inner product's left factor is read at point `n`. -/
theorem idx_dotl (b : Fin 8) (n m : Fin 4096) (k : Fin 3) :
    Read.lidx_main_v4 (ix3 b n m) k = ix3 b n k := by
  funext a
  match a with
  | ⟨0, _⟩ => rfl
  | ⟨1, _⟩ => rfl
  | ⟨2, _⟩ => rfl

/-- The inner product's right factor is read at point `m`. -/
theorem idx_dotr (b : Fin 8) (n m : Fin 4096) (k : Fin 3) :
    Read.ridx_main_v4 (ix3 b n m) k = ix3 b m k := by
  funext a
  match a with
  | ⟨0, _⟩ => rfl
  | ⟨1, _⟩ => rfl
  | ⟨2, _⟩ => rfl

/-- The array of clamped squared distances, read at (b, n, m), is the specification's. -/
theorem stage14_apply (X Y : (⟨S8x4096x3, .f32⟩ : BufTy).Contents (Elt Ideal)) (b : Fin 8) (n m : Fin 4096) :
    Read.val_main_v14 (F := Ideal) X Y (ix3 b n m) = d2 X Y b n m := by
  rw [Read.val_main_v14_apply, Read.val_main_v12_apply, Read.val_main_v9_apply, Read.val_main_v11_apply,
    Read.val_main_v13_apply, Read.val_main_cst_2_apply, Read.val_main_v10_apply, Read.val_main_cst_1_apply,
    Read.val_main_v7_apply, Read.val_main_v5_apply, Read.val_main_v1_apply,
    Read.val_main_v8_apply, Read.val_main_v6_apply, Read.val_main_v3_apply, Read.val_main_v4_apply,
    Read.val_main_cst_apply, Read.val_main_cst_0_apply]
  simp only [Read.val_main_v0_apply, Read.val_main_v2_apply, idx_sq1, idx_sq2, idx_dotl, idx_dotr,
    Ideal.ofBits_def, Ideal.maximumf_def, Ideal.subf_def, Ideal.addf_def, Ideal.mulf_def,
    Ideal.ofBits_zero_f32, ofBits_two, zero_add]
  rfl

/-- The host's minimum along one axis, from an initial value: below it is below the initial value and below every
    element of the reduced line. -/
theorem le_hostMin_axis {s t u : Shape} {a : Fin s.rank} (x : s.Idx → EReal) (init : u.Idx → EReal)
    (h' : s.ReducesTo [a] t) (h : s.Reduces [a] t) (hu : 0 < u.numel) (j : t.Idx) (z : EReal) :
    z ≤ Host.reduce (FloatOps.minimumf (F := Ideal) (φ := .f32)) x init h' hu j
      ↔ z ≤ init (Shape.Idx.first hu) ∧ ∀ k : Fin (s.size a), z ≤ x (h.lift j k) := by
  classical
  rw [Host.reduce_eq_fold_single (FloatOps.minimumf (F := Ideal) (φ := .f32)) x init h' h hu j]
  refine (Finset.le_fold_min (s := (Finset.univ : Finset (Fin (s.size a)))) (f := x ∘ h.lift j)
    (b := init (Shape.Idx.first hu)) z).trans ?_
  simp only [Finset.mem_univ, true_implies, Function.comp_apply]

/-- Along the last axis of an [8, 4096, 4096] array, the index over (b, n) with coordinate `k` inserted is (b, n, k). -/
theorem lift_last (h : S8x4096x4096.Reduces [2] S8x4096) (b : Fin 8) (n k : Fin 4096) :
    h.lift (ix2 b n) k = ix3 b n k := by
  funext c
  match c with
  | ⟨0, _⟩ => exact Fin.ext rfl
  | ⟨1, _⟩ => exact Fin.ext rfl
  | ⟨2, _⟩ => exact Fin.ext rfl

/-- Along the middle axis of an [8, 4096, 4096] array, the index over (b, m) with coordinate `k` inserted is (b, k, m). -/
theorem lift_mid (h : S8x4096x4096.Reduces [1] S8x4096) (b : Fin 8) (m k : Fin 4096) :
    h.lift (ix2 b m) k = ix3 b k m := by
  funext c
  match c with
  | ⟨0, _⟩ => exact Fin.ext rfl
  | ⟨1, _⟩ => exact Fin.ext rfl
  | ⟨2, _⟩ => exact Fin.ext rfl

/-- The minimum along the second cloud's points is the specification's first array of minima. -/
theorem stage15_eq (X Y : (⟨S8x4096x3, .f32⟩ : BufTy).Contents (Elt Ideal)) :
    Read.val_main_v15 (F := Ideal) X Y = min1 X Y := by
  funext j
  obtain ⟨b, n, rfl⟩ : ∃ b n, j = ix2 b n := ⟨j 0, j 1, eq_ix2 j⟩
  refine eq_of_forall_le_iff fun z => ?_
  have hR : S8x4096x4096.Reduces [2] S8x4096 := by decide
  unfold Read.val_main_v15
  refine (le_hostMin_axis _ _ _ hR _ _ z).trans ?_
  show _ ↔ z ≤ ⨅ m : Fin 4096, d2 X Y b n m
  rw [le_iInf_iff]
  constructor
  · intro hh m
    have := hh.2 m
    rwa [lift_last hR b n m, stage14_apply] at this
  · intro hh
    refine ⟨?_, fun (k : Fin 4096) => ?_⟩
    · show z ≤ Ideal.ofBits .f32 0x7F800000#32
      rw [Cert.LibMinReduce.ofBits_inf]; exact le_top
    · rw [lift_last hR b n k, stage14_apply]; exact hh k

/-- The minimum along the first cloud's points is the specification's second array of minima. -/
theorem stage16_eq (X Y : (⟨S8x4096x3, .f32⟩ : BufTy).Contents (Elt Ideal)) :
    Read.val_main_v16 (F := Ideal) X Y = min2 X Y := by
  funext j
  obtain ⟨b, m, rfl⟩ : ∃ b m, j = ix2 b m := ⟨j 0, j 1, eq_ix2 j⟩
  refine eq_of_forall_le_iff fun z => ?_
  have hR : S8x4096x4096.Reduces [1] S8x4096 := by decide
  unfold Read.val_main_v16
  refine (le_hostMin_axis _ _ _ hR _ _ z).trans ?_
  show _ ↔ z ≤ ⨅ n : Fin 4096, d2 X Y b n m
  rw [le_iInf_iff]
  constructor
  · intro hh n
    have := hh.2 n
    rwa [lift_mid hR b m n, stage14_apply] at this
  · intro hh
    refine ⟨?_, fun (k : Fin 4096) => ?_⟩
    · show z ≤ Ideal.ofBits .f32 0x7F800000#32
      rw [Cert.LibMinReduce.ofBits_inf]; exact le_top
    · rw [lift_mid hR b m k, stage14_apply]; exact hh k

/-- The reference's last eleven operations are the specification's tail of its two stages of minima. -/
theorem stage25_eq_tail (X Y : (⟨S8x4096x3, .f32⟩ : BufTy).Contents (Elt Ideal)) :
    Read.val_main_v25 (F := Ideal) X Y
      = tail Cert.ReferenceIdeal.Facts₀.reducesTo_S8x4096_S8_d1 Cert.ReferenceIdeal.Facts₀.h_S_
          Cert.ReferenceIdeal.Facts₀.bcast_S_S8 Cert.ReferenceIdeal.Facts₀.reducesTo_S8_S_d0
          (Read.val_main_v15 (F := Ideal) X Y) (Read.val_main_v16 (F := Ideal) X Y) := rfl

/-- The reference's result is the specification: the tail of the two arrays of least clamped squared distances. -/
theorem ref_result (X Y : (⟨S8x4096x3, .f32⟩ : BufTy).Contents (Elt Ideal)) :
    Read.val_main_v25 (F := Ideal) X Y
      = tail Cert.ReferenceIdeal.Facts₀.reducesTo_S8x4096_S8_d1 Cert.ReferenceIdeal.Facts₀.h_S_
          Cert.ReferenceIdeal.Facts₀.bcast_S_S8 Cert.ReferenceIdeal.Facts₀.reducesTo_S8_S_d0
          (min1 X Y) (min2 X Y) := by
  rw [stage25_eq_tail, stage15_eq, stage16_eq]

/-- The reference runs on every device and leaves its two argument arrays unchanged: its run's post, with the
    statement about the result dropped. -/
theorem frame_ri :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The reference's run against the specification: on every device it terminates with its result the tail of the two
    arrays of least clamped squared distances of its two argument arrays, and the arguments unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
        r.2.mem ((c.tc : Thread nD τ).loc main_v25)
          = tail Cert.ReferenceIdeal.Facts₀.reducesTo_S8x4096_S8_d1 Cert.ReferenceIdeal.Facts₀.h_S_
              Cert.ReferenceIdeal.Facts₀.bcast_S_S8 Cert.ReferenceIdeal.Facts₀.reducesTo_S8_S_d0
              (min1 (m ((c.tc : Thread nD τ).loc main_arg0)) (m ((c.tc : Thread nD τ).loc main_arg1)))
              (min2 (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run Cert.ReferenceIdeal.defs _ _).mono
    (fun _ h c => ⟨(h c).1.trans ((Read.val_main_v25_eq _ _).trans (ref_result _ _)), (h c).2⟩)
    (Cert.ReferenceIdeal.Value.run (F := Ideal) m ρ)

end Cert.Chamfer.Ref

end
-- ==== Proof.Assemble.lean ====
/-
  The claims of the two-sided nearest-neighbour squared distance, assembled. The kernel program's two output arrays
  end at the specification's two arrays of least clamped squared distances (under finite inputs); the host operations
  after the kernel cast each to [8, 4096] and take the mean of means, which is the specification's tail; the reference
  program computes the same tail of the same two arrays. So both programs run and end at one value, and each leaves
  its argument arrays unchanged.
-/
import proofs.«130840_j14293651161196_2_alg».proof.Defs
import proofs.«130840_j14293651161196_2_alg».proof.Proof.Gen.Kernel
import proofs.«130840_j14293651161196_2_alg».proof.Proof.Gen.KernelIdeal
import proofs.«130840_j14293651161196_2_alg».proof.Proof.Gen.ReferenceIdeal
import proofs.«130840_j14293651161196_2_alg».proof.Proof.Gen.Pre_finite_inputs
import proofs.«130840_j14293651161196_2_alg».proof.Proof.BitsFrame
import proofs.«130840_j14293651161196_2_alg».proof.Proof.IdealFinal
import proofs.«130840_j14293651161196_2_alg».proof.Proof.HostSide
import proofs.«130840_j14293651161196_2_alg».proof.Proof.RefSide

noncomputable section

namespace Cert.Proof.ChamferClaims

open Idealize.ShloMosaic Idealize.ShloMosaic.TcCoe Idealize.ShloMosaic.ValueIdx Idealize.SL.Sem

/-! ## The frames -/

theorem frame_k : Cert.frame_Kernel (hKernel := Cert.Kernel.Gen.facts)
    (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts)
    (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts)
    (hPre_finite_inputs := Cert.Pre_finite_inputs.Gen.facts) :=
  Cert.Chamfer.Ref.frame_ri

/-- The idealized kernel is the kernel's own text read on the extended reals: no operation was rewritten. -/
theorem preserves : Cert.preserves_Kernel_KernelIdeal := trivial

/-! ## The kernel's value -/

section KernelValue

open Cert.KernelIdeal Cert.KernelIdeal.Gen

/-- An [8, 1, 4096] array that holds, at (b, 0, n), the value of `f` at (b, n), cast to [8, 4096], is `f`. -/
theorem reshape_of (f : S8x4096.Idx → EReal) :
    shapeCast S8x4096 (fun j : S8x1x4096.Idx => f (ix2 (j 0) (j 2))) Facts₀.shapeCasts_S8x1x4096_S8x4096 = f := by
  funext j
  obtain ⟨b, n, rfl⟩ : ∃ b n, j = ix2 b n := ⟨j 0, j 1, eq_ix2 j⟩
  exact Cert.Chamfer.Host.reshape_apply _ b n

/-- The specification's value of the argument arrays of memory `m` on device `c`: the mean of means of the two arrays
    of least clamped squared distances. -/
abbrev specValue (m : (ℓ : Loc nD τ sig) → Buf (Elt Ideal) ℓ) (c : Dev nD) :
    Buf (Elt Ideal) ((c.tc : Thread nD τ).loc main_v13) :=
  Cert.Chamfer.tail Facts₀.reducesTo_S8x4096_S8_d1 Facts₀.h_S_ Facts₀.bcast_S_S8 Facts₀.reducesTo_S8_S_d0
    (Cert.Chamfer.min1 (m ((c.tc : Thread nD τ).loc main_arg0)) (m ((c.tc : Thread nD τ).loc main_arg1)))
    (Cert.Chamfer.min2 (m ((c.tc : Thread nD τ).loc main_arg0)) (m ((c.tc : Thread nD τ).loc main_arg1)))

/-- Under finite inputs, what the operations after the kernel leave in the result buffer is the specification's value. -/
theorem kernel_value (m : (ℓ : Loc nD τ sig) → Buf (Elt Ideal) ℓ) (c : Dev nD) (hpre : Cert.Pre_KernelIdeal m) :
    Pipeline.afterTail₀ cfgs (Cert.KernelIdeal.Hand.dats m) 0 (V0 m) [hostOps1] c main_v13 = specValue m c := by
  obtain ⟨hX, hY⟩ := Cert.Chamfer.Host.real_of_pre m c hpre
  refine (Cert.Chamfer.Host.tail_eq m c (Cert.KernelIdeal.Hand.dats m)).trans ?_
  have e2 : shapeCast S8x4096 ((Cert.KernelIdeal.Hand.dats m 0 c).arrAt 2 cfg0.N : S8x1x4096.Idx → EReal)
      Facts₀.shapeCasts_S8x1x4096_S8x4096
      = Cert.Chamfer.min1 (m ((c.tc : Thread nD τ).loc main_arg0)) (m ((c.tc : Thread nD τ).loc main_arg1)) := by
    rw [Cert.KernelIdeal.Hand.final2 m c hX hY]
    exact reshape_of _
  have e3 : shapeCast S8x4096 ((Cert.KernelIdeal.Hand.dats m 0 c).arrAt 3 cfg0.N : S8x1x4096.Idx → EReal)
      Facts₀.shapeCasts_S8x1x4096_S8x4096
      = Cert.Chamfer.min2 (m ((c.tc : Thread nD τ).loc main_arg0)) (m ((c.tc : Thread nD τ).loc main_arg1)) := by
    rw [Cert.KernelIdeal.Hand.final3 m c hX hY]
    exact reshape_of _
  exact congrArg₂ (Cert.Chamfer.tail Facts₀.reducesTo_S8x4096_S8_d1 Facts₀.h_S_ Facts₀.bcast_S_S8
    Facts₀.reducesTo_S8_S_d0) e2 e3

/-- The kernel program's run, read: it terminates with its result at the specification's value and its argument
    arrays unchanged. -/
theorem kernel_run (m : (ℓ : Loc nD τ sig) → Buf (Elt Ideal) ℓ) (ρ : Dev nD → PrngReg) (hpre : Cert.Pre_KernelIdeal m) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v13) = specValue m c
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans (kernel_value m c hpre),
      ((h c).2 main_arg0 (Pipeline.mem_restRefs_of main_arg0 (by decide) (by decide))).trans
        (W_main_arg0 m (Cert.KernelIdeal.Hand.dats m) c),
      ((h c).2 main_arg1 (Pipeline.mem_restRefs_of main_arg1 (by decide) (by decide))).trans
        (W_main_arg1 m (Cert.KernelIdeal.Hand.dats m) c)⟩)
    (Cert.KernelIdeal.Hand.run_main (F := Ideal) m ρ)

end KernelValue

/-! ## The two programs end at one value -/

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => specValue m c, kernel_run m ρ hpre, ?_⟩
  refine (θ_run Cert.ReferenceIdeal.defs _ _).mono (fun _ h c => ⟨(h c).1.trans ?_, (h c).2⟩)
    (Cert.Chamfer.Ref.run_spec m' ρ')
  rw [(hagree c).1, (hagree c).2]

/-- Everything the certificate claims. -/
theorem claim_all : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.ChamferClaims

end
-- ==== Proof.lean ====
/-
  Two batches of 8 point clouds, 4096 points in 3-space each. For every point of a first cloud take the least clamped
  squared distance max(|x|^2 + |y|^2 - 2 <x, y>, 0) to the points y of the matching second cloud, and for every point of
  a second cloud the least to the first; the result is the mean over the batch of (mean of the first minima + mean of
  the second minima).

  The kernel walks a batch in 8 blocks of 512 rows of the first cloud against the whole second cloud. It forms the
  512 x 4096 tile of squared distances as ONE product of a 5-row stack (-2x ; |x|^2 ; 1) with a 5-row stack
  (y ; 1 ; |y|^2), clamps it at 0, takes its row minima for the first result, and folds its column minima over the 8 row
  blocks in a scratch row that the last row block copies into the second result. The reference forms
  |x|^2 + |y|^2 - 2 <x, y> over the whole batch and takes both minima directly.

  On the extended reals the two agree when the coordinates are finite: the 5-term product is then
  -2 x0 y0 - 2 x1 y1 - 2 x2 y2 + |x|^2 + |y|^2, which is the reference's expression by distributivity over real numbers
  (the one place finiteness is used); a minimum over 4096 rows is the minimum of the 8 blocks' minima; and both programs
  end with the same mean-of-means arithmetic, which is never opened. Minima are compared through their universal
  property: a value is below a minimum exactly when it is below every element.

  Spec states the functions; PayIdeal reads the body's arithmetic at an index; Blocks and Cover place each block in its
  array; IdealConds / IdealRun* / IdealFrame (and their word-level counterparts Bits*) run the body at each point and
  give the frames; IdealPieces, IdealValue, IdealFinal follow the scratch row along a batch and name the output arrays;
  HostSide reads the operations around the call; RefSide reads the reference; Assemble puts the five claims together.
-/
import proofs.«130840_j14293651161196_2_alg».proof.Defs
import proofs.«130840_j14293651161196_2_alg».proof.Proof.Assemble

noncomputable section

namespace Cert.Proof

theorem claim : Cert.Claim := Cert.Proof.ChamferClaims.claim_all

end Cert.Proof

end
